-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 88
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S850000, .i32⟩
  | .hbm, ⟨28, _⟩ => ⟨S850000, .i1⟩
  | .hbm, ⟨29, _⟩ => ⟨S_, .i32⟩
  | .hbm, ⟨30, _⟩ => ⟨S850000, .i32⟩
  | .hbm, ⟨31, _⟩ => ⟨S850000, .i32⟩
  | .hbm, ⟨32, _⟩ => ⟨S850000, .i32⟩
  | .hbm, ⟨33, _⟩ => ⟨S850000x1, .i32⟩
  | .hbm, ⟨34, _⟩ => ⟨S850000, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000, .f32⟩
  | .hbm, ⟨44, _⟩ => ⟨S850000, .f32⟩
  | .hbm, ⟨45, _⟩ => ⟨S50000x128, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x128, .f32⟩
  | .hbm, ⟨55, _⟩ => ⟨S850000x1, .f32⟩
  | .hbm, ⟨56, _⟩ => ⟨S850000x128, .f32⟩
  | .hbm, ⟨57, _⟩ => ⟨S850000x128, .f32⟩
  | .hbm, ⟨58, _⟩ => ⟨S_, .f32⟩
  | .hbm, ⟨59, _⟩ => ⟨S50000x128, .f32⟩
  | .hbm, ⟨60, _⟩ => ⟨S850000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000, .i32⟩
  | .hbm, ⟨69, _⟩ => ⟨S1x800000, .i32⟩
  | .hbm, ⟨70, _⟩ => ⟨S800000, .i32⟩
  | .hbm, ⟨71, _⟩ => ⟨S850000, .i32⟩
  | .hbm, ⟨72, _⟩ => ⟨S1x800000, .i32⟩
  | .hbm, ⟨73, _⟩ => ⟨S800000, .i32⟩
  | .hbm, ⟨74, _⟩ => ⟨S850000, .i32⟩
  | .hbm, ⟨75, _⟩ => ⟨S_, .f32⟩
  | .hbm, ⟨76, _⟩ => ⟨S850000, .f32⟩
  | .hbm, ⟨77, _⟩ => ⟨S_, .f32⟩
  | .hbm, ⟨78, _⟩ => ⟨S50000, .f32⟩
  | .hbm, ⟨79, _⟩ => ⟨S850000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000, .f32⟩
  | .hbm, ⟨97, _⟩ => ⟨S_, .i32⟩
  | .hbm, ⟨98, _⟩ => ⟨S850000, .i32⟩
  | .hbm, ⟨99, _⟩ => ⟨S850000, .i1⟩
  | .hbm, ⟨100, _⟩ => ⟨S_, .i32⟩
  | .hbm, ⟨101, _⟩ => ⟨S850000, .i32⟩
  | .hbm, ⟨102, _⟩ => ⟨S850000, .i32⟩
  | .hbm, ⟨103, _⟩ => ⟨S850000, .i32⟩
  | .hbm, ⟨104, _⟩ => ⟨S850000x1, .i32⟩
  | .hbm, ⟨105, _⟩ => ⟨S850000, .f32⟩
  | .hbm, ⟨106, _⟩ => ⟨S850000, .f32⟩
  | .hbm, ⟨107, _⟩ => ⟨S50000x64, .f32⟩
  | .hbm, ⟨108, _⟩ => ⟨S_, .i32⟩
  | .hbm, ⟨109, _⟩ => ⟨S850000, .i32⟩
  | .hbm, ⟨110, _⟩ => ⟨S850000, .i1⟩
  | .hbm, ⟨111, _⟩ => ⟨S_, .i32⟩
  | .hbm, ⟨112, _⟩ => ⟨S850000, .i32⟩
  | .hbm, ⟨113, _⟩ => ⟨S850000, .i32⟩
  | .hbm, ⟨114, _⟩ => ⟨S850000, .i32⟩
  | .hbm, ⟨115, _⟩ => ⟨S850000x1, .i32⟩
  | .hbm, ⟨116, _⟩ => ⟨S850000x64, .f32⟩
  | .hbm, ⟨117, _⟩ => ⟨S850000x1, .f32⟩
  | .hbm, ⟨118, _⟩ => ⟨S850000x64, .f32⟩
  | .hbm, ⟨119, _⟩ => ⟨S850000x64, .f32⟩
  | .hbm, ⟨120, _⟩ => ⟨S_, .f32⟩
  | .hbm, ⟨121, _⟩ => ⟨S50000x64, .f32⟩
  | .hbm, ⟨122, _⟩ => ⟨S850000x1, .i32⟩
  | .hbm, ⟨123, _⟩ => ⟨S50000x64, .f32⟩
  | .hbm, ⟨124, _⟩ => ⟨S1x64, .f32⟩
  | .hbm, ⟨125, _⟩ => ⟨S50000x64, .f32⟩
  | .hbm, ⟨126, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_17 : Ref sig .tc := ⟨.hbm, 108, rfl⟩
abbrev main_v81 : Ref sig .tc := ⟨.hbm, 109, rfl⟩
abbrev main_v82 : Ref sig .tc := ⟨.hbm, 110, rfl⟩
abbrev main_c_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its RESULT named.

  @main is eight segments: three stretches of host operations, the first matrix product as a pipelined region, two
  stretches, the second product as a region, one last stretch. The generated frame proves that this run terminates with
  every unscoped buffer at the contents of the last segment boundary (the fold `Gen.W8` from the launch memory: a host
  stretch rewrites the buffers its operations write, a region leaves in its arrays what its blocks' write-backs leave),
  and reads of it only the six arguments. Here the same run is read at one more buffer, the result `main_v65`: it ends
  at `Gen.W8 m ρ c` of its own reference. What that is as a function of the arguments is the business of the value
  modules; nothing of the arithmetic enters here.
-/
import proofs.«124687_j43611097924207_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last segment
    boundary's contents and the six argument arrays as launched: the segments' run launched as in the frame, the final
    state read at every unscoped buffer, of which the result is one. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.ResultRun

end
-- ==== Proof.Spec.lean ====
/-
  The graph convolution both programs compute, as ONE function of the arguments, built from the host operations
  the two programs share.

  The graph has 50000 nodes and 800000 edges; every node also gets a self loop, so there are 850000 messages. From the
  edge table `ei` (a row of sources, a row of destinations):
    * `srcOf ei`, `dstOf ei`   the message sources and destinations: the table's row followed by 0, 1, …, 49999;
    * `degOf ei`               the in-degree of every node: ones scattered and added at the destinations;
    * `dinvOf ei`              deg^(-1/2) where the degree is positive and 0 elsewhere;
    * `normFrom dinv src dst`  per message, dinv at its source times dinv at its destination (an index below zero is
                               wrapped by adding 50000 before the gather, as jnp's indexing does);
    * `layer128 p src dst nrm b`  one propagation of projected features `p`: gather the source rows, scale each by the
                               message's norm, scatter-add at the destinations, add the bias; `layer64` the same at width 64;
    * `reluOf h`               max(h, 0).
  A layer's projected features are a dense product, which the reference takes on the host and the kernel computes in a
  pipelined region; everything else is these operations, on both sides. The definitions are generic in the float
  instance; nothing here is specific to extended reals.
-/
import proofs.«124687_j43611097924207_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The edge table, message indices, per-node and per-message floats, and the two feature widths. -/
abbrev Edges (F : FTy → Type) := (⟨S2x800000, .i32⟩ : BufTy).Contents (Elt F)
abbrev MsgIdx (F : FTy → Type) := (⟨S850000, .i32⟩ : BufTy).Contents (Elt F)
abbrev NodeMask (F : FTy → Type) := (⟨S50000, .i1⟩ : BufTy).Contents (Elt F)
abbrev NodeVal (F : FTy → Type) := (⟨S50000, .f32⟩ : BufTy).Contents (Elt F)
abbrev MsgVal (F : FTy → Type) := (⟨S850000, .f32⟩ : BufTy).Contents (Elt F)
abbrev Feat128 (F : FTy → Type) := (⟨S50000x128, .f32⟩ : BufTy).Contents (Elt F)
abbrev Feat64 (F : FTy → Type) := (⟨S50000x64, .f32⟩ : BufTy).Contents (Elt F)
abbrev Bias128 (F : FTy → Type) := (⟨S128, .f32⟩ : BufTy).Contents (Elt F)
abbrev Bias64 (F : FTy → Type) := (⟨S64, .f32⟩ : BufTy).Contents (Elt F)

/-- Message sources: row 0 of the edge table, then every node once (the self loops). -/
def srcOf (ei : Edges F) : MsgIdx F :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- Message destinations: row 1 of the edge table, then every node once. -/
def dstOf (ei : Edges F) : MsgIdx F :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- Zero at every node. -/
def zeroNodes : NodeVal F := broadcastInDim S50000 ![] bcast_S_S50000 (constant S_ .f32 0x00000000#32)

/-- A vector of message indices as a column of index words. -/
def colOf (ix : MsgIdx F) : (⟨S850000x1, .i32⟩ : BufTy).Contents (Elt F) :=
  broadcastInDim S850000x1 ![0] bcast_S850000_S850000x1_0 ix

/-- In-degrees: a one per message, added at its destination. -/
def degOf (ei : Edges F) : NodeVal F :=
  Host.scatterAdd scatter_S50000_S850000x1_S850000_n_0_0_1 zeroNodes (colOf (dstOf ei)) (broadcastInDim S850000 ![] bcast_S_S850000 (constant S_ .f32 0x3F800000#32))

/-- The choice between two per-node values by a mask. -/
def pickNodes (mask : NodeMask F) (a b : NodeVal F) : NodeVal F := select mask a b

/-- deg^(-1/2) where the degree is positive, zero elsewhere. -/
def dinvOf (ei : Edges F) : NodeVal F :=
  pickNodes (cmpf .ogt (degOf ei) zeroNodes) (Host.rsqrt (degOf ei)) zeroNodes

/-- An index below zero counts from the end: 50000 is added to it. -/
def wrapOf (ix : MsgIdx F) : MsgIdx F :=
  select (cmpi .slt ix (broadcastInDim S850000 ![] bcast_S_S850000 (constantI S_ 32 0#32))) (addi ix (broadcastInDim S850000 ![] bcast_S_S850000 (constantI S_ 32 50000#32))) ix

/-- Per message: the node value at its source times the node value at its destination. -/
def normFrom (dinv : NodeVal F) (src dst : MsgIdx F) : MsgVal F :=
  mulf (Host.gather gather_S50000_S850000x1_S850000_n_0_n_n_0_1_1 dinv (colOf (wrapOf src)))
    (Host.gather gather_S50000_S850000x1_S850000_n_0_n_n_0_1_1 dinv (colOf (wrapOf dst)))

/-- The symmetric normalisation of every message, from the edge table alone. -/
def normOf (ei : Edges F) : MsgVal F := normFrom (dinvOf ei) (srcOf ei) (dstOf ei)

/-- One propagation at width 128: rows of `p` gathered at the sources, scaled by the message's norm, added at the
    destinations; then the bias on every row. -/
def layer128 (p : Feat128 F) (src dst : MsgIdx F) (nrm : MsgVal F) (b : Bias128 F) : Feat128 F :=
  addf (Host.scatterAdd scatter_S50000x128_S850000x1_S850000x128_1_0_0_1 (broadcastInDim S50000x128 ![] bcast_S_S50000x128 (constant S_ .f32 0x00000000#32)) (colOf dst)
      (mulf (Host.gather gather_S50000x128_S850000x1_S850000x128_1_0_n_n_0_1_1128 p (colOf (wrapOf src)))
        (broadcastInDim S850000x128 ![0, 1] bcast_S850000x1_S850000x128_0_1 (broadcastInDim S850000x1 ![0] bcast_S850000_S850000x1_0 nrm))))
    (broadcastInDim S50000x128 ![0, 1] bcast_S1x128_S50000x128_0_1 (broadcastInDim S1x128 ![1] bcast_S128_S1x128_1 b))

/-- The same propagation at width 64. -/
def layer64 (p : Feat64 F) (src dst : MsgIdx F) (nrm : MsgVal F) (b : Bias64 F) : Feat64 F :=
  addf (Host.scatterAdd scatter_S50000x64_S850000x1_S850000x64_1_0_0_1 (broadcastInDim S50000x64 ![] bcast_S_S50000x64 (constant S_ .f32 0x00000000#32)) (colOf dst)
      (mulf (Host.gather gather_S50000x64_S850000x1_S850000x64_1_0_n_n_0_1_164 p (colOf (wrapOf src)))
        (broadcastInDim S850000x64 ![0, 1] bcast_S850000x1_S850000x64_0_1 (broadcastInDim S850000x1 ![0] bcast_S850000_S850000x1_0 nrm))))
    (broadcastInDim S50000x64 ![0, 1] bcast_S1x64_S50000x64_0_1 (broadcastInDim S1x64 ![1] bcast_S64_S1x64_1 b))

/-- max(h, 0), entry by entry. -/
def reluOf (h : Feat128 F) : Feat128 F :=
  maximumf h (broadcastInDim S50000x128 ![] bcast_S_S50000x128 (constant S_ .f32 0x00000000#32))

/-- The two dense products, on the host. -/
def proj128 (x : Feat128 F) (w : (⟨S128x128, .f32⟩ : BufTy).Contents (Elt F)) : Feat128 F :=
  Host.dotGeneral dot_S50000x128_S128x128_S50000x128_1_0_0_1_n_n none x w
def proj64 (h : Feat128 F) (w : (⟨S128x64, .f32⟩ : BufTy).Contents (Elt F)) : Feat64 F :=
  Host.dotGeneral dot_S50000x128_S128x64_S50000x64_1_0_0_1_n_n none h w

/-- THE NETWORK: two propagations with a relu between, the normalisation shared. -/
def gcn (x : Feat128 F) (ei : Edges F) (w1 : (⟨S128x128, .f32⟩ : BufTy).Contents (Elt F)) (b1 : Bias128 F)
    (w2 : (⟨S128x64, .f32⟩ : BufTy).Contents (Elt F)) (b2 : Bias64 F) : Feat64 F :=
  layer64 (proj64 (reluOf (layer128 (proj128 x w1) (srcOf ei) (dstOf ei) (normOf ei) b1)) w2) (srcOf ei) (dstOf ei) (normOf ei) b2

end Cert.Gcn

end
-- ==== Proof.KernelTail.lean ====
/-
  The host code around the kernel's two products, evaluated.

  @main of the idealized kernel is six stretches of host operations around two pipelined regions. The generated frame
  names the buffer contents at every boundary between them (`Gen.W0` … `Gen.W8`: a stretch rewrites the buffers its
  operations write and leaves the rest, a region changes only its output array). Here each stretch is read at the few
  buffers a later stretch or region consumes — as one of the shared graph-convolution operations (Spec) of the buffers
  it reads — and at the buffers it merely passes on, which keep their contents. Chained from the launch memory this
  gives, at every boundary, the sources, destinations and norms as functions of the edge table alone, the arguments
  untouched, the first layer as `layer128` of whatever the first region left in its output array, and the result as
  `layer64` of whatever the second region left in its. The regions' arrays themselves are the business of the value
  module; no arithmetic is opened here, so everything holds at any float instance.
-/
import proofs.«124687_j43611097924207_1_alg».proof.Proof.Gen.KernelIdeal.Frame
import proofs.«124687_j43611097924207_1_alg».proof.Proof.Spec
import Idealize.ShloMosaic.Lib.StableHlo.Run

noncomputable section

namespace Cert.KernelIdeal.HostValue

open Idealize.ShloMosaic Idealize.ShloMosaic.TcCoe Idealize.SL.Sem Idealize.ShloMosaic.StableHlo
open Cert.KernelIdeal Cert.KernelIdeal.Gen

variable {F : FTy → Type} [FloatOps F]

/-! ## One stretch at a time, from any contents `V` -/

/-! ### hostOps0: the first stretch: sources, destinations, and the degrees' mask, inverse root and the zero they fall back to -/

theorem h0_v3 (V : Valuation τ sig (Elt F)) :
    after (hostOps0 (F := F)) V (Proc.devRef .tc main_v3) = Gcn.srcOf (V (Proc.devRef .tc main_arg1)) := by
  dsimp only [hostOps0, TRef.nullary, TRef.unary, TRef.binary, TRef.ternary]; after_results; rfl
theorem h0_v6 (V : Valuation τ sig (Elt F)) :
    after (hostOps0 (F := F)) V (Proc.devRef .tc main_v6) = Gcn.dstOf (V (Proc.devRef .tc main_arg1)) := by
  dsimp only [hostOps0, TRef.nullary, TRef.unary, TRef.binary, TRef.ternary]; after_results; rfl
theorem h0_v12 (V : Valuation τ sig (Elt F)) :
    after (hostOps0 (F := F)) V (Proc.devRef .tc main_v12) = cmpf .ogt (Gcn.degOf (V (Proc.devRef .tc main_arg1))) Gcn.zeroNodes := by
  dsimp only [hostOps0, TRef.nullary, TRef.unary, TRef.binary, TRef.ternary]; after_results; rfl
theorem h0_v13 (V : Valuation τ sig (Elt F)) :
    after (hostOps0 (F := F)) V (Proc.devRef .tc main_v13) = Host.rsqrt (Gcn.degOf (V (Proc.devRef .tc main_arg1))) := by
  dsimp only [hostOps0, TRef.nullary, TRef.unary, TRef.binary, TRef.ternary]; after_results; rfl
theorem h0_v14 (V : Valuation τ sig (Elt F)) :
    after (hostOps0 (F := F)) V (Proc.devRef .tc main_v14) = Gcn.zeroNodes := by
  dsimp only [hostOps0, TRef.nullary, TRef.unary, TRef.binary, TRef.ternary]; after_results; rfl
theorem h0_keep_arg0 (V : Valuation τ sig (Elt F)) :
    after (hostOps0 (F := F)) V (Proc.devRef .tc main_arg0) = V (Proc.devRef .tc main_arg0) := by
  dsimp only [hostOps0, TRef.nullary, TRef.unary, TRef.binary, TRef.ternary]; after_results
theorem h0_keep_arg2 (V : Valuation τ sig (Elt F)) :
    after (hostOps0 (F := F)) V (Proc.devRef .tc main_arg2) = V (Proc.devRef .tc main_arg2) := by
  dsimp only [hostOps0, TRef.nullary, TRef.unary, TRef.binary, TRef.ternary]; after_results
theorem h0_keep_arg3 (V : Valuation τ sig (Elt F)) :
    after (hostOps0 (F := F)) V (Proc.devRef .tc main_arg3) = V (Proc.devRef .tc main_arg3) := by
  dsimp only [hostOps0, TRef.nullary, TRef.unary, TRef.binary, TRef.ternary]; after_results
theorem h0_keep_arg4 (V : Valuation τ sig (Elt F)) :
    after (hostOps0 (F := F)) V (Proc.devRef .tc main_arg4) = V (Proc.devRef .tc main_arg4) := by
  dsimp only [hostOps0, TRef.nullary, TRef.unary, TRef.binary, TRef.ternary]; after_results
theorem h0_keep_arg5 (V : Valuation τ sig (Elt F)) :
    after (hostOps0 (F := F)) V (Proc.devRef .tc main_arg5) = V (Proc.devRef .tc main_arg5) := by
  dsimp only [hostOps0, TRef.nullary, TRef.unary, TRef.binary, TRef.ternary]; after_results

/-! ### hostOps0_1: the outlined `where` -/

theorem h01_v15 (V : Valuation τ sig (Elt F)) :
    after (hostOps0_1 (F := F)) V (Proc.devRef .tc main_v15) = Gcn.pickNodes (V (Proc.devRef .tc main_v12)) (V (Proc.devRef .tc main_v13)) (V (Proc.devRef .tc main_v14)) := by
  dsimp only [hostOps0_1, TRef.nullary, TRef.unary, TRef.binary, TRef.ternary]; after_results_simp <;> rfl
theorem h01_keep_v3 (V : Valuation τ sig (Elt F)) :
    after (hostOps0_1 (F := F)) V (Proc.devRef .tc main_v3) = V (Proc.devRef .tc main_v3) := by
  dsimp only [hostOps0_1, TRef.nullary, TRef.unary, TRef.binary, TRef.ternary]; after_results
theorem h01_keep_v6 (V : Valuation τ sig (Elt F)) :
    after (hostOps0_1 (F := F)) V (Proc.devRef .tc main_v6) = V (Proc.devRef .tc main_v6) := by
  dsimp only [hostOps0_1, TRef.nullary, TRef.unary, TRef.binary, TRef.ternary]; after_results
theorem h01_keep_arg0 (V : Valuation τ sig (Elt F)) :
    after (hostOps0_1 (F := F)) V (Proc.devRef .tc main_arg0) = V (Proc.devRef .tc main_arg0) := by
  dsimp only [hostOps0_1, TRef.nullary, TRef.unary, TRef.binary, TRef.ternary]; after_results
theorem h01_keep_arg2 (V : Valuation τ sig (Elt F)) :
    after (hostOps0_1 (F := F)) V (Proc.devRef .tc main_arg2) = V (Proc.devRef .tc main_arg2) := by
  dsimp only [hostOps0_1, TRef.nullary, TRef.unary, TRef.binary, TRef.ternary]; after_results
theorem h01_keep_arg3 (V : Valuation τ sig (Elt F)) :
    after (hostOps0_1 (F := F)) V (Proc.devRef .tc main_arg3) = V (Proc.devRef .tc main_arg3) := by
  dsimp only [hostOps0_1, TRef.nullary, TRef.unary, TRef.binary, TRef.ternary]; after_results
theorem h01_keep_arg4 (V : Valuation τ sig (Elt F)) :
    after (hostOps0_1 (F := F)) V (Proc.devRef .tc main_arg4) = V (Proc.devRef .tc main_arg4) := by
  dsimp only [hostOps0_1, TRef.nullary, TRef.unary, TRef.binary, TRef.ternary]; after_results
theorem h01_keep_arg5 (V : Valuation τ sig (Elt F)) :
    after (hostOps0_1 (F := F)) V (Proc.devRef .tc main_arg5) = V (Proc.devRef .tc main_arg5) := by
  dsimp only [hostOps0_1, TRef.nullary, TRef.unary, TRef.binary, TRef.ternary]; after_results

/-! ### hostOps0_2: the stretch before the first product: the messages' norms -/

theorem h02_v30 (V : Valuation τ sig (Elt F)) :
    after (hostOps0_2 (F := F)) V (Proc.devRef .tc main_v30) = Gcn.normFrom (V (Proc.devRef .tc main_v15)) (V (Proc.devRef .tc main_v3)) (V (Proc.devRef .tc main_v6)) := by
  dsimp only [hostOps0_2, TRef.nullary, TRef.unary, TRef.binary, TRef.ternary]; after_results_simp <;> rfl
theorem h02_keep_v3 (V : Valuation τ sig (Elt F)) :
    after (hostOps0_2 (F := F)) V (Proc.devRef .tc main_v3) = V (Proc.devRef .tc main_v3) := by
  dsimp only [hostOps0_2, TRef.nullary, TRef.unary, TRef.binary, TRef.ternary]; after_results
theorem h02_keep_v6 (V : Valuation τ sig (Elt F)) :
    after (hostOps0_2 (F := F)) V (Proc.devRef .tc main_v6) = V (Proc.devRef .tc main_v6) := by
  dsimp only [hostOps0_2, TRef.nullary, TRef.unary, TRef.binary, TRef.ternary]; after_results
theorem h02_keep_arg0 (V : Valuation τ sig (Elt F)) :
    after (hostOps0_2 (F := F)) V (Proc.devRef .tc main_arg0) = V (Proc.devRef .tc main_arg0) := by
  dsimp only [hostOps0_2, TRef.nullary, TRef.unary, TRef.binary, TRef.ternary]; after_results
theorem h02_keep_arg2 (V : Valuation τ sig (Elt F)) :
    after (hostOps0_2 (F := F)) V (Proc.devRef .tc main_arg2) = V (Proc.devRef .tc main_arg2) := by
  dsimp only [hostOps0_2, TRef.nullary, TRef.unary, TRef.binary, TRef.ternary]; after_results
theorem h02_keep_arg3 (V : Valuation τ sig (Elt F)) :
    after (hostOps0_2 (F := F)) V (Proc.devRef .tc main_arg3) = V (Proc.devRef .tc main_arg3) := by
  dsimp only [hostOps0_2, TRef.nullary, TRef.unary, TRef.binary, TRef.ternary]; after_results
theorem h02_keep_arg4 (V : Valuation τ sig (Elt F)) :
    after (hostOps0_2 (F := F)) V (Proc.devRef .tc main_arg4) = V (Proc.devRef .tc main_arg4) := by
  dsimp only [hostOps0_2, TRef.nullary, TRef.unary, TRef.binary, TRef.ternary]; after_results
theorem h02_keep_arg5 (V : Valuation τ sig (Elt F)) :
    after (hostOps0_2 (F := F)) V (Proc.devRef .tc main_arg5) = V (Proc.devRef .tc main_arg5) := by
  dsimp only [hostOps0_2, TRef.nullary, TRef.unary, TRef.binary, TRef.ternary]; after_results

/-! ### hostOps1: the stretch after the first product: one propagation at width 128 -/

theorem h1_v47 (V : Valuation τ sig (Elt F)) :
    after (hostOps1 (F := F)) V (Proc.devRef .tc main_v47) = Gcn.layer128 (V (Proc.devRef .tc main_v31)) (V (Proc.devRef .tc main_v3)) (V (Proc.devRef .tc main_v6)) (V (Proc.devRef .tc main_v30)) (V (Proc.devRef .tc main_arg3)) := by
  dsimp only [hostOps1, TRef.nullary, TRef.unary, TRef.binary, TRef.ternary]; after_results_simp <;> rfl
theorem h1_keep_v3 (V : Valuation τ sig (Elt F)) :
    after (hostOps1 (F := F)) V (Proc.devRef .tc main_v3) = V (Proc.devRef .tc main_v3) := by
  dsimp only [hostOps1, TRef.nullary, TRef.unary, TRef.binary, TRef.ternary]; after_results
theorem h1_keep_v6 (V : Valuation τ sig (Elt F)) :
    after (hostOps1 (F := F)) V (Proc.devRef .tc main_v6) = V (Proc.devRef .tc main_v6) := by
  dsimp only [hostOps1, TRef.nullary, TRef.unary, TRef.binary, TRef.ternary]; after_results
theorem h1_keep_v30 (V : Valuation τ sig (Elt F)) :
    after (hostOps1 (F := F)) V (Proc.devRef .tc main_v30) = V (Proc.devRef .tc main_v30) := by
  dsimp only [hostOps1, TRef.nullary, TRef.unary, TRef.binary, TRef.ternary]; after_results
theorem h1_keep_arg4 (V : Valuation τ sig (Elt F)) :
    after (hostOps1 (F := F)) V (Proc.devRef .tc main_arg4) = V (Proc.devRef .tc main_arg4) := by
  dsimp only [hostOps1, TRef.nullary, TRef.unary, TRef.binary, TRef.ternary]; after_results
theorem h1_keep_arg5 (V : Valuation τ sig (Elt F)) :
    after (hostOps1 (F := F)) V (Proc.devRef .tc main_arg5) = V (Proc.devRef .tc main_arg5) := by
  dsimp only [hostOps1, TRef.nullary, TRef.unary, TRef.binary, TRef.ternary]; after_results

/-! ### hostOps1_1: the outlined relu -/

theorem h11_v48 (V : Valuation τ sig (Elt F)) :
    after (hostOps1_1 (F := F)) V (Proc.devRef .tc main_v48) = Gcn.reluOf (V (Proc.devRef .tc main_v47)) := by
  dsimp only [hostOps1_1, TRef.nullary, TRef.unary, TRef.binary, TRef.ternary]; after_results_simp <;> rfl
theorem h11_keep_v3 (V : Valuation τ sig (Elt F)) :
    after (hostOps1_1 (F := F)) V (Proc.devRef .tc main_v3) = V (Proc.devRef .tc main_v3) := by
  dsimp only [hostOps1_1, TRef.nullary, TRef.unary, TRef.binary, TRef.ternary]; after_results
theorem h11_keep_v6 (V : Valuation τ sig (Elt F)) :
    after (hostOps1_1 (F := F)) V (Proc.devRef .tc main_v6) = V (Proc.devRef .tc main_v6) := by
  dsimp only [hostOps1_1, TRef.nullary, TRef.unary, TRef.binary, TRef.ternary]; after_results
theorem h11_keep_v30 (V : Valuation τ sig (Elt F)) :
    after (hostOps1_1 (F := F)) V (Proc.devRef .tc main_v30) = V (Proc.devRef .tc main_v30) := by
  dsimp only [hostOps1_1, TRef.nullary, TRef.unary, TRef.binary, TRef.ternary]; after_results
theorem h11_keep_arg4 (V : Valuation τ sig (Elt F)) :
    after (hostOps1_1 (F := F)) V (Proc.devRef .tc main_arg4) = V (Proc.devRef .tc main_arg4) := by
  dsimp only [hostOps1_1, TRef.nullary, TRef.unary, TRef.binary, TRef.ternary]; after_results
theorem h11_keep_arg5 (V : Valuation τ sig (Elt F)) :
    after (hostOps1_1 (F := F)) V (Proc.devRef .tc main_arg5) = V (Proc.devRef .tc main_arg5) := by
  dsimp only [hostOps1_1, TRef.nullary, TRef.unary, TRef.binary, TRef.ternary]; after_results

/-! ### hostOps2: the last stretch: one propagation at width 64 -/

theorem h2_v65 (V : Valuation τ sig (Elt F)) :
    after (hostOps2 (F := F)) V (Proc.devRef .tc main_v65) = Gcn.layer64 (V (Proc.devRef .tc main_v49)) (V (Proc.devRef .tc main_v3)) (V (Proc.devRef .tc main_v6)) (V (Proc.devRef .tc main_v30)) (V (Proc.devRef .tc main_arg5)) := by
  dsimp only [hostOps2, TRef.nullary, TRef.unary, TRef.binary, TRef.ternary]; after_results_simp <;> rfl

/-! ## The boundaries' contents, from the launch memory -/

variable (m : (ℓ : Loc nD τ sig) → Buf (Elt F) ℓ) (ρ : Dev nD → PrngReg) (c : Dev nD)

/-! ### After the first stretch -/

theorem W1_v3 : W1 m ρ c (Proc.devRef .tc main_v3) = Gcn.srcOf (m ((c.tc : Thread nD τ).loc main_arg1)) :=
  h0_v3 (W0 m ρ c)
theorem W1_v6 : W1 m ρ c (Proc.devRef .tc main_v6) = Gcn.dstOf (m ((c.tc : Thread nD τ).loc main_arg1)) :=
  h0_v6 (W0 m ρ c)
theorem W1_v12 : W1 m ρ c (Proc.devRef .tc main_v12) = cmpf .ogt (Gcn.degOf (m ((c.tc : Thread nD τ).loc main_arg1))) Gcn.zeroNodes :=
  h0_v12 (W0 m ρ c)
theorem W1_v13 : W1 m ρ c (Proc.devRef .tc main_v13) = Host.rsqrt (Gcn.degOf (m ((c.tc : Thread nD τ).loc main_arg1))) :=
  h0_v13 (W0 m ρ c)
theorem W1_v14 : W1 m ρ c (Proc.devRef .tc main_v14) = (Gcn.zeroNodes : Gcn.NodeVal F) :=
  h0_v14 (W0 m ρ c)
theorem W1_arg0 : W1 m ρ c (Proc.devRef .tc main_arg0) = (m ((c.tc : Thread nD τ).loc main_arg0)) :=
  h0_keep_arg0 (W0 m ρ c)
theorem W1_arg2 : W1 m ρ c (Proc.devRef .tc main_arg2) = (m ((c.tc : Thread nD τ).loc main_arg2)) :=
  h0_keep_arg2 (W0 m ρ c)
theorem W1_arg3 : W1 m ρ c (Proc.devRef .tc main_arg3) = (m ((c.tc : Thread nD τ).loc main_arg3)) :=
  h0_keep_arg3 (W0 m ρ c)
theorem W1_arg4 : W1 m ρ c (Proc.devRef .tc main_arg4) = (m ((c.tc : Thread nD τ).loc main_arg4)) :=
  h0_keep_arg4 (W0 m ρ c)
theorem W1_arg5 : W1 m ρ c (Proc.devRef .tc main_arg5) = (m ((c.tc : Thread nD τ).loc main_arg5)) :=
  h0_keep_arg5 (W0 m ρ c)

/-! ### After the outlined `where`: the inverse roots of the degrees -/

theorem W2_v15 : W2 m ρ c (Proc.devRef .tc main_v15) = Gcn.dinvOf (m ((c.tc : Thread nD τ).loc main_arg1)) :=
  (h01_v15 (W1 m ρ c)).trans (by rw [W1_v12 m ρ c, W1_v13 m ρ c, W1_v14 m ρ c]; rfl)
theorem W2_v3 : W2 m ρ c (Proc.devRef .tc main_v3) = Gcn.srcOf (m ((c.tc : Thread nD τ).loc main_arg1)) :=
  (h01_keep_v3 (W1 m ρ c)).trans (W1_v3 m ρ c)
theorem W2_v6 : W2 m ρ c (Proc.devRef .tc main_v6) = Gcn.dstOf (m ((c.tc : Thread nD τ).loc main_arg1)) :=
  (h01_keep_v6 (W1 m ρ c)).trans (W1_v6 m ρ c)
theorem W2_arg0 : W2 m ρ c (Proc.devRef .tc main_arg0) = (m ((c.tc : Thread nD τ).loc main_arg0)) :=
  (h01_keep_arg0 (W1 m ρ c)).trans (W1_arg0 m ρ c)
theorem W2_arg2 : W2 m ρ c (Proc.devRef .tc main_arg2) = (m ((c.tc : Thread nD τ).loc main_arg2)) :=
  (h01_keep_arg2 (W1 m ρ c)).trans (W1_arg2 m ρ c)
theorem W2_arg3 : W2 m ρ c (Proc.devRef .tc main_arg3) = (m ((c.tc : Thread nD τ).loc main_arg3)) :=
  (h01_keep_arg3 (W1 m ρ c)).trans (W1_arg3 m ρ c)
theorem W2_arg4 : W2 m ρ c (Proc.devRef .tc main_arg4) = (m ((c.tc : Thread nD τ).loc main_arg4)) :=
  (h01_keep_arg4 (W1 m ρ c)).trans (W1_arg4 m ρ c)
theorem W2_arg5 : W2 m ρ c (Proc.devRef .tc main_arg5) = (m ((c.tc : Thread nD τ).loc main_arg5)) :=
  (h01_keep_arg5 (W1 m ρ c)).trans (W1_arg5 m ρ c)

/-! ### At the first region's entry: the messages' norms -/

theorem W3_v30 : W3 m ρ c (Proc.devRef .tc main_v30) = Gcn.normOf (m ((c.tc : Thread nD τ).loc main_arg1)) :=
  (h02_v30 (W2 m ρ c)).trans (by rw [W2_v15 m ρ c, W2_v3 m ρ c, W2_v6 m ρ c]; rfl)
theorem W3_v3 : W3 m ρ c (Proc.devRef .tc main_v3) = Gcn.srcOf (m ((c.tc : Thread nD τ).loc main_arg1)) :=
  (h02_keep_v3 (W2 m ρ c)).trans (W2_v3 m ρ c)
theorem W3_v6 : W3 m ρ c (Proc.devRef .tc main_v6) = Gcn.dstOf (m ((c.tc : Thread nD τ).loc main_arg1)) :=
  (h02_keep_v6 (W2 m ρ c)).trans (W2_v6 m ρ c)
theorem W3_arg0 : W3 m ρ c (Proc.devRef .tc main_arg0) = (m ((c.tc : Thread nD τ).loc main_arg0)) :=
  (h02_keep_arg0 (W2 m ρ c)).trans (W2_arg0 m ρ c)
theorem W3_arg2 : W3 m ρ c (Proc.devRef .tc main_arg2) = (m ((c.tc : Thread nD τ).loc main_arg2)) :=
  (h02_keep_arg2 (W2 m ρ c)).trans (W2_arg2 m ρ c)
theorem W3_arg3 : W3 m ρ c (Proc.devRef .tc main_arg3) = (m ((c.tc : Thread nD τ).loc main_arg3)) :=
  (h02_keep_arg3 (W2 m ρ c)).trans (W2_arg3 m ρ c)
theorem W3_arg4 : W3 m ρ c (Proc.devRef .tc main_arg4) = (m ((c.tc : Thread nD τ).loc main_arg4)) :=
  (h02_keep_arg4 (W2 m ρ c)).trans (W2_arg4 m ρ c)
theorem W3_arg5 : W3 m ρ c (Proc.devRef .tc main_arg5) = (m ((c.tc : Thread nD τ).loc main_arg5)) :=
  (h02_keep_arg5 (W2 m ρ c)).trans (W2_arg5 m ρ c)

/-! ### At the first region's exit: only its output array has changed -/

theorem W4_v3 : W4 m ρ c (Proc.devRef .tc main_v3) = Gcn.srcOf (m ((c.tc : Thread nD τ).loc main_arg1)) :=
  (W4_of_ne m ρ c main_v3 (by decide)).trans (W3_v3 m ρ c)
theorem W4_v6 : W4 m ρ c (Proc.devRef .tc main_v6) = Gcn.dstOf (m ((c.tc : Thread nD τ).loc main_arg1)) :=
  (W4_of_ne m ρ c main_v6 (by decide)).trans (W3_v6 m ρ c)
theorem W4_v30 : W4 m ρ c (Proc.devRef .tc main_v30) = Gcn.normOf (m ((c.tc : Thread nD τ).loc main_arg1)) :=
  (W4_of_ne m ρ c main_v30 (by decide)).trans (W3_v30 m ρ c)
theorem W4_arg3 : W4 m ρ c (Proc.devRef .tc main_arg3) = (m ((c.tc : Thread nD τ).loc main_arg3)) :=
  (W4_of_ne m ρ c main_arg3 (by decide)).trans (W3_arg3 m ρ c)
theorem W4_arg4 : W4 m ρ c (Proc.devRef .tc main_arg4) = (m ((c.tc : Thread nD τ).loc main_arg4)) :=
  (W4_of_ne m ρ c main_arg4 (by decide)).trans (W3_arg4 m ρ c)
theorem W4_arg5 : W4 m ρ c (Proc.devRef .tc main_arg5) = (m ((c.tc : Thread nD τ).loc main_arg5)) :=
  (W4_of_ne m ρ c main_arg5 (by decide)).trans (W3_arg5 m ρ c)

/-! ### After the first propagation -/

theorem W5_v47 : W5 m ρ c (Proc.devRef .tc main_v47) = Gcn.layer128 (W4 m ρ c (Proc.devRef .tc main_v31)) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)) :=
  (h1_v47 (W4 m ρ c)).trans (by rw [W4_v3 m ρ c, W4_v6 m ρ c, W4_v30 m ρ c, W4_arg3 m ρ c])
theorem W5_v3 : W5 m ρ c (Proc.devRef .tc main_v3) = Gcn.srcOf (m ((c.tc : Thread nD τ).loc main_arg1)) :=
  (h1_keep_v3 (W4 m ρ c)).trans (W4_v3 m ρ c)
theorem W5_v6 : W5 m ρ c (Proc.devRef .tc main_v6) = Gcn.dstOf (m ((c.tc : Thread nD τ).loc main_arg1)) :=
  (h1_keep_v6 (W4 m ρ c)).trans (W4_v6 m ρ c)
theorem W5_v30 : W5 m ρ c (Proc.devRef .tc main_v30) = Gcn.normOf (m ((c.tc : Thread nD τ).loc main_arg1)) :=
  (h1_keep_v30 (W4 m ρ c)).trans (W4_v30 m ρ c)
theorem W5_arg4 : W5 m ρ c (Proc.devRef .tc main_arg4) = (m ((c.tc : Thread nD τ).loc main_arg4)) :=
  (h1_keep_arg4 (W4 m ρ c)).trans (W4_arg4 m ρ c)
theorem W5_arg5 : W5 m ρ c (Proc.devRef .tc main_arg5) = (m ((c.tc : Thread nD τ).loc main_arg5)) :=
  (h1_keep_arg5 (W4 m ρ c)).trans (W4_arg5 m ρ c)

/-! ### At the second region's entry: the relu of the first layer -/

theorem W6_v48 : W6 m ρ c (Proc.devRef .tc main_v48) = Gcn.reluOf (Gcn.layer128 (W4 m ρ c (Proc.devRef .tc main_v31)) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3))) :=
  (h11_v48 (W5 m ρ c)).trans (by rw [W5_v47 m ρ c])
theorem W6_v3 : W6 m ρ c (Proc.devRef .tc main_v3) = Gcn.srcOf (m ((c.tc : Thread nD τ).loc main_arg1)) :=
  (h11_keep_v3 (W5 m ρ c)).trans (W5_v3 m ρ c)
theorem W6_v6 : W6 m ρ c (Proc.devRef .tc main_v6) = Gcn.dstOf (m ((c.tc : Thread nD τ).loc main_arg1)) :=
  (h11_keep_v6 (W5 m ρ c)).trans (W5_v6 m ρ c)
theorem W6_v30 : W6 m ρ c (Proc.devRef .tc main_v30) = Gcn.normOf (m ((c.tc : Thread nD τ).loc main_arg1)) :=
  (h11_keep_v30 (W5 m ρ c)).trans (W5_v30 m ρ c)
theorem W6_arg4 : W6 m ρ c (Proc.devRef .tc main_arg4) = (m ((c.tc : Thread nD τ).loc main_arg4)) :=
  (h11_keep_arg4 (W5 m ρ c)).trans (W5_arg4 m ρ c)
theorem W6_arg5 : W6 m ρ c (Proc.devRef .tc main_arg5) = (m ((c.tc : Thread nD τ).loc main_arg5)) :=
  (h11_keep_arg5 (W5 m ρ c)).trans (W5_arg5 m ρ c)

/-! ### At the second region's exit -/

theorem W7_v3 : W7 m ρ c (Proc.devRef .tc main_v3) = Gcn.srcOf (m ((c.tc : Thread nD τ).loc main_arg1)) :=
  (W7_of_ne m ρ c main_v3 (by decide)).trans (W6_v3 m ρ c)
theorem W7_v6 : W7 m ρ c (Proc.devRef .tc main_v6) = Gcn.dstOf (m ((c.tc : Thread nD τ).loc main_arg1)) :=
  (W7_of_ne m ρ c main_v6 (by decide)).trans (W6_v6 m ρ c)
theorem W7_v30 : W7 m ρ c (Proc.devRef .tc main_v30) = Gcn.normOf (m ((c.tc : Thread nD τ).loc main_arg1)) :=
  (W7_of_ne m ρ c main_v30 (by decide)).trans (W6_v30 m ρ c)
theorem W7_arg5 : W7 m ρ c (Proc.devRef .tc main_arg5) = (m ((c.tc : Thread nD τ).loc main_arg5)) :=
  (W7_of_ne m ρ c main_arg5 (by decide)).trans (W6_arg5 m ρ c)

/-! ### The result: the second propagation of whatever the second region left -/

theorem W8_v65 : W8 m ρ c (Proc.devRef .tc main_v65) = Gcn.layer64 (W7 m ρ c (Proc.devRef .tc main_v49)) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg5)) :=
  (h2_v65 (W7 m ρ c)).trans (by rw [W7_v3 m ρ c, W7_v6 m ρ c, W7_v30 m ρ c, W7_arg5 m ρ c])

end Cert.KernelIdeal.HostValue

end
-- ==== Proof.RegionProduct.lean ====
import proofs.«124687_j43611097924207_1_alg».proof.Proof.Gen.KernelIdeal.Frame
import proofs.«124687_j43611097924207_1_alg».proof.Proof.Gen.ReferenceIdeal
import Idealize.ShloMosaic.Lib.Pipeline.Value
import Idealize.ShloMosaic.Lib.ValueIdx
import Idealize.ShloMosaic.PureOps.Ideal.Laws

noncomputable section
namespace Cert.KernelIdeal.RegionProduct
open Idealize.ShloMosaic Idealize.ShloMosaic.TcCoe Idealize.SL.Sem
open Cert.KernelIdeal Cert.KernelIdeal.Gen

/-! # What each of the two tiled products leaves in its output array

Each region multiplies a 50000-row array by a weight array, ten blocks of 5000 rows at a time: at point t the body
reads block t of the rows and the whole weight array, rounds both (the identity at the ideal values), and stores the
product of the two blocks into block t of the output. At an index (r, q) both that and the host's product of the
whole arrays are the sum over k : Fin 128 of X (r, k) · W (k, q); the blocks tile the rows, so the output array ends
holding the host's product of the two input arrays as the region finds them. -/

/-! ## Region 0: a 50000 × 128 array times a 128 × 128 array, ten blocks of 5000 rows -/

/-- The product of two arrays at an index (r, q): the sum over k of A (r, k) · B (k, q). -/
def prod0 (A : S50000x128.Idx → EReal) (B : S128x128.Idx → EReal) : S50000x128.Idx → EReal :=
  fun i => ∑ k : Fin 128, A (ValueIdx.ix2 (i 0) k) * B (ValueIdx.ix2 k (i 1))

section KernelDot0
local notation "D" => Cert.KernelIdeal.dot_S5000x128_S128x128_S5000x128_1_0_0_1_n_n

theorem kd0_lhs0 (i : S5000x128.Idx) (q : (D).contr.Idx) : ((D).lhsIdx i q 0).val = (i 0).val := by
  unfold DotDims.lhsIdx
  rw [dif_neg (show ¬(0 : Fin S5000x128.rank) ∈ (D).lhsBatch by decide), dif_pos (show (0 : Fin S5000x128.rank) ∈ (D).lhsNonContracting by decide)]
  rfl
theorem kd0_lhs1 (i : S5000x128.Idx) (q : (D).contr.Idx) : ((D).lhsIdx i q 1).val = (q ⟨0, by decide⟩).val :=
  (D).lhsIdx_val_of_single rfl i q
theorem kd0_rhs0 (i : S5000x128.Idx) (q : (D).contr.Idx) : ((D).rhsIdx i q 0).val = (q ⟨0, by decide⟩).val :=
  (D).rhsIdx_val_of_single rfl i q
theorem kd0_rhs1 (i : S5000x128.Idx) (q : (D).contr.Idx) : ((D).rhsIdx i q 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-- The body's payload on a block of 5000 rows, at (p, q): the two roundings are the identity at the ideal values, and the
    product into the zero accumulator is the sum over k of x0 (p, k) · x1 (k, q). -/
theorem pay0_apply (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  show FloatOps.matmul (F := Ideal) D none (truncf (F := Ideal) .bf16 x0 bitsLt_bf16_f32) (truncf (F := Ideal) .bf16 x1 bitsLt_bf16_f32)
      (constant (F := Ideal) S5000x128 .f32 0x00000000#32) (ValueIdx.ix2 p q) = _
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : (D).lhsIdx (ValueIdx.ix2 p q) ((ValueIdx.contrEquiv1 D 128 rfl rfl).symm k) = ValueIdx.ix2 p k := funext fun a => Fin.ext (by
    match a with
    | ⟨0, _⟩ => exact kd0_lhs0 _ _
    | ⟨1, _⟩ => exact (kd0_lhs1 _ _).trans hk)
  have er : (D).rhsIdx (ValueIdx.ix2 p q) ((ValueIdx.contrEquiv1 D 128 rfl rfl).symm k) = ValueIdx.ix2 k q := funext fun a => Fin.ext (by
    match a with
    | ⟨0, _⟩ => exact (kd0_rhs0 _ _).trans hk
    | ⟨1, _⟩ => exact kd0_rhs1 _ _)
  rw [el, er]
  rfl
end KernelDot0

section HostDot0
local notation "D" => Cert.ReferenceIdeal.dot_S50000x128_S128x128_S50000x128_1_0_0_1_n_n

theorem hd0_lhs0 (i : S50000x128.Idx) (q : (D).contr.Idx) : ((D).lhsIdx i q 0).val = (i 0).val := by
  unfold DotDims.lhsIdx
  rw [dif_neg (show ¬(0 : Fin S50000x128.rank) ∈ (D).lhsBatch by decide), dif_pos (show (0 : Fin S50000x128.rank) ∈ (D).lhsNonContracting by decide)]
  rfl
theorem hd0_lhs1 (i : S50000x128.Idx) (q : (D).contr.Idx) : ((D).lhsIdx i q 1).val = (q ⟨0, by decide⟩).val :=
  (D).lhsIdx_val_of_single rfl i q
theorem hd0_rhs0 (i : S50000x128.Idx) (q : (D).contr.Idx) : ((D).rhsIdx i q 0).val = (q ⟨0, by decide⟩).val :=
  (D).rhsIdx_val_of_single rfl i q
theorem hd0_rhs1 (i : S50000x128.Idx) (q : (D).contr.Idx) : ((D).rhsIdx i q 1).val = (i 1).val := by
  unfold DotDims.rhsIdx
  rw [dif_neg (show ¬(1 : Fin S128x128.rank) ∈ (D).rhsBatch by decide), dif_pos (show (1 : Fin S128x128.rank) ∈ (D).rhsNonContracting by decide)]
  rfl

/-- The host's product of the whole arrays is the same sum at every index. -/
theorem host0_eq (A : S50000x128.Idx → EReal) (B : S128x128.Idx → EReal) :
    Host.dotGeneral (F := Ideal) (φ₁ := .f32) (φ₂ := .f32) D none A B = prod0 A B := by
  funext i
  obtain ⟨p, q, rfl⟩ : ∃ (p : Fin 50000) (q : Fin 128), i = ValueIdx.ix2 p q := ⟨i 0, i 1, ValueIdx.eq_ix2 i⟩
  unfold prod0
  simp only [Host.dotGeneral]
  rw [Ideal.dotGeneral_apply, ← Equiv.sum_comp (ValueIdx.contrEquiv1 D 128 rfl rfl).symm]
  refine Finset.sum_congr rfl fun k _ => ?_
  have hk := ValueIdx.contrEquiv1_symm_val D 128 rfl rfl k
  have el : (D).lhsIdx (ValueIdx.ix2 p q) ((ValueIdx.contrEquiv1 D 128 rfl rfl).symm k) = ValueIdx.ix2 p k := funext fun a => Fin.ext (by
    match a with
    | ⟨0, _⟩ => exact hd0_lhs0 _ _
    | ⟨1, _⟩ => exact (hd0_lhs1 _ _).trans hk)
  have er : (D).rhsIdx (ValueIdx.ix2 p q) ((ValueIdx.contrEquiv1 D 128 rfl rfl).symm k) = ValueIdx.ix2 k q := funext fun a => Fin.ext (by
    match a with
    | ⟨0, _⟩ => exact (hd0_rhs0 _ _).trans hk
    | ⟨1, _⟩ => exact hd0_rhs1 _ _)
  rw [el, er]
end HostDot0

/-- The payload on a block whose rows are rows of A and whose weight block is B, at a block index j that sits at the array
    index i: the product of A and B at i. -/
theorem pay0_eq_prod (x0 : Vec Ideal S5000x128 .f32) (x1 : Vec Ideal S128x128 .f32)
    (A : S50000x128.Idx → EReal) (B : S128x128.Idx → EReal) (j : S5000x128.Idx) (i : S50000x128.Idx)
    (h0 : ∀ k : Fin 128, x0 (ValueIdx.ix2 (j 0) k) = A (ValueIdx.ix2 (i 0) k))
    (h1 : ∀ k : Fin 128, x1 (ValueIdx.ix2 k (j 1)) = B (ValueIdx.ix2 k (i 1))) :
    k0_pay1 (F := Ideal) x0 x1 j = prod0 A B i := by
  obtain ⟨p, q, rfl⟩ : ∃ (p : Fin 5000) (q : Fin 128), j = ValueIdx.ix2 p q := ⟨j 0, j 1, ValueIdx.eq_ix2 j⟩
  rw [pay0_apply]
  unfold prod0
  exact Finset.sum_congr rfl fun k _ => congrArg₂ (· * ·) (h0 k) (h1 k)

theorem zero_offsets : (![0, 0] : Fin 2 → Nat) = fun _ => 0 := funext fun a => by fin_cases a <;> rfl

/-- The printed index maps over the ten points: the feature block and the output block of point t are block t of their
    arrays' rows, all columns; the weight block is the whole weight array at every point. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the feature array and the weight array as the region finds them. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e00, e01, e10, e11, e20, e21⟩ := index0 t
  funext j
  show k0_pay1 (F := Ideal) (iblk0 V c 0 t) (iblk0 V c 1 t) j
      = prod0 (V c main_arg0) (V c main_arg2) (((cfg0.win 2).blk t).view.emb j)
  refine pay0_eq_prod _ _ (V c main_arg0) (V c main_arg2) j _ (fun k => ?_) (fun k => ?_)
  · show V c main_arg0 (((cfg0.win 0).blk t).view.emb (ValueIdx.ix2 (j 0) k))
        = V c main_arg0 (ValueIdx.ix2 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ValueIdx.ix2 k (j 1)))
        = V c main_arg2 (ValueIdx.ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- The ten blocks of 5000 rows cover the 50000 rows: row r is in the block of point r / 5000. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e20, e21⟩ := index0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    omega

/-- REGION 0 leaves in its output array the host's product of its two input arrays. -/
theorem region0_array (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none (V c main_arg0) (V c main_arg2) := by
  rw [host0_eq]
  exact (dat0 (F := Ideal) V c).arrAt_eq_of_cover 2 (prod0 (V c main_arg0) (V c main_arg2))
    (fun t _ => flushed0_eq V c t) cover0

/-! ## Region 1: a 50000 × 128 array times a 128 × 64 array, ten blocks of 5000 rows -/

/-- The product of two arrays at an index (r, q): the sum over k of A (r, k) · B (k, q). -/
def prod1 (A : S50000x128.Idx → EReal) (B : S128x64.Idx → EReal) : S50000x64.Idx → EReal :=
  fun i => ∑ k : Fin 128, A (ValueIdx.ix2 (i 0) k) * B (ValueIdx.ix2 k (i 1))

section KernelDot1
local notation "D" => Cert.KernelIdeal.dot_S5000x128_S128x64_S5000x64_1_0_0_1_n_n

theorem kd1_lhs0 (i : S5000x64.Idx) (q : (D).contr.Idx) : ((D).lhsIdx i q 0).val = (i 0).val := by
  unfold DotDims.lhsIdx
  rw [dif_neg (show ¬(0 : Fin S5000x128.rank) ∈ (D).lhsBatch by decide), dif_pos (show (0 : Fin S5000x128.rank) ∈ (D).lhsNonContracting by decide)]
  rfl
theorem kd1_lhs1 (i : S5000x64.Idx) (q : (D).contr.Idx) : ((D).lhsIdx i q 1).val = (q ⟨0, by decide⟩).val :=
  (D).lhsIdx_val_of_single rfl i q
theorem kd1_rhs0 (i : S5000x64.Idx) (q : (D).contr.Idx) : ((D).rhsIdx i q 0).val = (q ⟨0, by decide⟩).val :=
  (D).rhsIdx_val_of_single rfl i q
theorem kd1_rhs1 (i : S5000x64.Idx) (q : (D).contr.Idx) : ((D).rhsIdx i q 1).val = (i 1).val := by
  unfold DotDims.rhsIdx
  rw [dif_neg (show ¬(1 : Fin S128x64.rank) ∈ (D).rhsBatch by decide), dif_pos (show (1 : Fin S128x64.rank) ∈ (D).rhsNonContracting by decide)]
  rfl

/-- The body's payload on a block of 5000 rows, at (p, q): the reshape to the same shape and the two roundings are the
    identity at the ideal values, and the product into the zero accumulator is the sum over k of x0 (p, k) · x1 (k, q). -/
theorem pay1_apply (x0 : Vec Ideal S5000x128 .f32) (x1 : Vec Ideal S128x64 .f32) (p : Fin 5000) (q : Fin 64) :
    k1_pay1 (F := Ideal) x0 x1 (ValueIdx.ix2 p q) = ∑ k : Fin 128, x0 (ValueIdx.ix2 p k) * x1 (ValueIdx.ix2 k q) := by
  unfold k1_pay1
  show FloatOps.matmul (F := Ideal) D none
      (truncf (F := Ideal) .bf16 (shapeCast S5000x128 x0 shapeCasts_S5000x128_S5000x128) bitsLt_bf16_f32)
      (truncf (F := Ideal) .bf16 x1 bitsLt_bf16_f32)
      (constant (F := Ideal) S5000x64 .f32 0x00000000#32) (ValueIdx.ix2 p q) = _
  rw [shapeCast_self, Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : (D).lhsIdx (ValueIdx.ix2 p q) ((ValueIdx.contrEquiv1 D 128 rfl rfl).symm k) = ValueIdx.ix2 p k := funext fun a => Fin.ext (by
    match a with
    | ⟨0, _⟩ => exact kd1_lhs0 _ _
    | ⟨1, _⟩ => exact (kd1_lhs1 _ _).trans hk)
  have er : (D).rhsIdx (ValueIdx.ix2 p q) ((ValueIdx.contrEquiv1 D 128 rfl rfl).symm k) = ValueIdx.ix2 k q := funext fun a => Fin.ext (by
    match a with
    | ⟨0, _⟩ => exact (kd1_rhs0 _ _).trans hk
    | ⟨1, _⟩ => exact kd1_rhs1 _ _)
  rw [el, er]
  rfl
end KernelDot1

section HostDot1
local notation "D" => Cert.ReferenceIdeal.dot_S50000x128_S128x64_S50000x64_1_0_0_1_n_n

theorem hd1_lhs0 (i : S50000x64.Idx) (q : (D).contr.Idx) : ((D).lhsIdx i q 0).val = (i 0).val := by
  unfold DotDims.lhsIdx
  rw [dif_neg (show ¬(0 : Fin S50000x128.rank) ∈ (D).lhsBatch by decide), dif_pos (show (0 : Fin S50000x128.rank) ∈ (D).lhsNonContracting by decide)]
  rfl
theorem hd1_lhs1 (i : S50000x64.Idx) (q : (D).contr.Idx) : ((D).lhsIdx i q 1).val = (q ⟨0, by decide⟩).val :=
  (D).lhsIdx_val_of_single rfl i q
theorem hd1_rhs0 (i : S50000x64.Idx) (q : (D).contr.Idx) : ((D).rhsIdx i q 0).val = (q ⟨0, by decide⟩).val :=
  (D).rhsIdx_val_of_single rfl i q
theorem hd1_rhs1 (i : S50000x64.Idx) (q : (D).contr.Idx) : ((D).rhsIdx i q 1).val = (i 1).val := by
  unfold DotDims.rhsIdx
  rw [dif_neg (show ¬(1 : Fin S128x64.rank) ∈ (D).rhsBatch by decide), dif_pos (show (1 : Fin S128x64.rank) ∈ (D).rhsNonContracting by decide)]
  rfl

/-- The host's product of the whole arrays is the same sum at every index. -/
theorem host1_eq (A : S50000x128.Idx → EReal) (B : S128x64.Idx → EReal) :
    Host.dotGeneral (F := Ideal) (φ₁ := .f32) (φ₂ := .f32) D none A B = prod1 A B := by
  funext i
  obtain ⟨p, q, rfl⟩ : ∃ (p : Fin 50000) (q : Fin 64), i = ValueIdx.ix2 p q := ⟨i 0, i 1, ValueIdx.eq_ix2 i⟩
  unfold prod1
  simp only [Host.dotGeneral]
  rw [Ideal.dotGeneral_apply, ← Equiv.sum_comp (ValueIdx.contrEquiv1 D 128 rfl rfl).symm]
  refine Finset.sum_congr rfl fun k _ => ?_
  have hk := ValueIdx.contrEquiv1_symm_val D 128 rfl rfl k
  have el : (D).lhsIdx (ValueIdx.ix2 p q) ((ValueIdx.contrEquiv1 D 128 rfl rfl).symm k) = ValueIdx.ix2 p k := funext fun a => Fin.ext (by
    match a with
    | ⟨0, _⟩ => exact hd1_lhs0 _ _
    | ⟨1, _⟩ => exact (hd1_lhs1 _ _).trans hk)
  have er : (D).rhsIdx (ValueIdx.ix2 p q) ((ValueIdx.contrEquiv1 D 128 rfl rfl).symm k) = ValueIdx.ix2 k q := funext fun a => Fin.ext (by
    match a with
    | ⟨0, _⟩ => exact (hd1_rhs0 _ _).trans hk
    | ⟨1, _⟩ => exact hd1_rhs1 _ _)
  rw [el, er]
end HostDot1

/-- The payload on a block whose rows are rows of A and whose weight block is B, at a block index j that sits at the array
    index i: the product of A and B at i. -/
theorem pay1_eq_prod (x0 : Vec Ideal S5000x128 .f32) (x1 : Vec Ideal S128x64 .f32)
    (A : S50000x128.Idx → EReal) (B : S128x64.Idx → EReal) (j : S5000x64.Idx) (i : S50000x64.Idx)
    (h0 : ∀ k : Fin 128, x0 (ValueIdx.ix2 (j 0) k) = A (ValueIdx.ix2 (i 0) k))
    (h1 : ∀ k : Fin 128, x1 (ValueIdx.ix2 k (j 1)) = B (ValueIdx.ix2 k (i 1))) :
    k1_pay1 (F := Ideal) x0 x1 j = prod1 A B i := by
  obtain ⟨p, q, rfl⟩ : ∃ (p : Fin 5000) (q : Fin 64), j = ValueIdx.ix2 p q := ⟨j 0, j 1, ValueIdx.eq_ix2 j⟩
  rw [pay1_apply]
  unfold prod1
  exact Finset.sum_congr rfl fun k _ => congrArg₂ (· * ·) (h0 k) (h1 k)

/-- The printed index maps over the ten points: the feature block and the output block of point t are block t of their
    arrays' rows, all columns; the weight block is the whole weight array at every point. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the product of the feature array and the weight array as the region finds them. -/
theorem flushed1_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (prod1 (V c main_v48) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x64) zero_offsets]
  obtain ⟨e00, e01, e10, e11, e20, e21⟩ := index1 t
  funext j
  show k1_pay1 (F := Ideal) (iblk1 V c 0 t) (iblk1 V c 1 t) j
      = prod1 (V c main_v48) (V c main_arg4) (((cfg1.win 2).blk t).view.emb j)
  refine pay1_eq_prod _ _ (V c main_v48) (V c main_arg4) j _ (fun k => ?_) (fun k => ?_)
  · show V c main_v48 (((cfg1.win 0).blk t).view.emb (ValueIdx.ix2 (j 0) k))
        = V c main_v48 (ValueIdx.ix2 ((((cfg1.win 2).blk t).view.emb j) 0) k)
    refine congrArg _ (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * k.val = k.val
      omega
  · show V c main_arg4 (((cfg1.win 1).blk t).view.emb (ValueIdx.ix2 k (j 1)))
        = V c main_arg4 (ValueIdx.ix2 k ((((cfg1.win 2).blk t).view.emb j) 1))
    refine congrArg _ (funext fun a => Fin.ext ?_)
    match a with
    | ⟨0, _⟩ =>
      show win1_1.index t (0 : Fin 2) * 128 + 1 * k.val = k.val
      omega
    | ⟨1, _⟩ =>
      show win1_1.index t (1 : Fin 2) * 64 + 1 * (j 1).val = win1_2.index t (1 : Fin 2) * 64 + 1 * (j 1).val
      omega

/-- An index of the output array is in point t's block iff each coordinate is in the block's range on its axis. -/
theorem mem_block1 (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v49).slice (win1_2.rect t)).set ↔ _
  rw [View.set_slice_whole, Rect.mem_set_unit]
  exact Iff.rfl

/-- The ten blocks of 5000 rows cover the 50000 rows: row r is in the block of point r / 5000. -/
theorem cover1 (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  have ht : (i 0).val / 5000 < cfg1.N := by rw [hN]; omega
  obtain ⟨-, -, -, -, e20, e21⟩ := index1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e20]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    omega

/-- REGION 1 leaves in its output array the host's product of its two input arrays. -/
theorem region1_array (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S50000x128_S128x64_S50000x64_1_0_0_1_n_n none (V c main_v48) (V c main_arg4) := by
  rw [host1_eq]
  exact (dat1 (F := Ideal) V c).arrAt_eq_of_cover 2 (prod1 (V c main_v48) (V c main_arg4))
    (fun t _ => flushed1_eq V c t) cover1

end Cert.KernelIdeal.RegionProduct
end
-- ==== Proof.KernelValue.lean ====
/-
  The idealized kernel's result, as the network of its six arguments.

  At the ideal values each of the two pipelined regions leaves in its output array the host's dense product of its two
  input arrays as the region finds them (RegionProduct: the blocks of 5000 rows tile the array, and the body's
  rounding to bf16 is the identity on extended reals). The first region finds the features and the first weights as
  launched; the second finds the relu of the first propagation, which the host code between the regions computed from
  the first region's output, and the second weights as launched. Substituting the two products into the host code's
  chain (KernelTail) gives the result buffer at `Gcn.gcn` of the arguments: two propagations with a relu between, the
  messages' norms computed once and used twice.
-/
import proofs.«124687_j43611097924207_1_alg».proof.Proof.KernelTail
import proofs.«124687_j43611097924207_1_alg».proof.Proof.RegionProduct

noncomputable section

namespace Cert.KernelIdeal.NetValue

open Idealize.ShloMosaic Idealize.ShloMosaic.TcCoe Idealize.SL.Sem Idealize.ShloMosaic.StableHlo
open Cert.KernelIdeal Cert.KernelIdeal.Gen Cert.KernelIdeal.HostValue

variable (m : (ℓ : Loc nD τ sig) → Buf (Elt Ideal) ℓ) (ρ : Dev nD → PrngReg) (c : Dev nD)

/-- The first region's output array: the features times the first weights. -/
theorem W4_v31 : W4 m ρ c (Proc.devRef .tc main_v31) = Gcn.proj128 (m ((c.tc : Thread nD τ).loc main_arg0)) (m ((c.tc : Thread nD τ).loc main_arg2)) :=
  ((W4_arr m ρ c 2).trans (RegionProduct.region0_array (V3 m ρ) c)).trans
    (congrArg₂ Gcn.proj128 (W3_arg0 m ρ c) (W3_arg2 m ρ c))

/-- What the second region is entered with: the relu of the first propagation of that product. -/
theorem W6_hidden : W6 m ρ c (Proc.devRef .tc main_v48) = Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3))) :=
  (W6_v48 m ρ c).trans (by rw [W4_v31 m ρ c])

/-- The second region's output array: the hidden features times the second weights. -/
theorem W7_v49 : W7 m ρ c (Proc.devRef .tc main_v49) = Gcn.proj64 (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) (m ((c.tc : Thread nD τ).loc main_arg4)) :=
  ((W7_arr m ρ c 2).trans (RegionProduct.region1_array (V6 m ρ) c)).trans
    (congrArg₂ Gcn.proj64 (W6_hidden m ρ c) (W6_arg4 m ρ c))

/-- THE KERNEL'S RESULT: the network of the six arguments. -/
theorem result_eq : W8 m ρ c (Proc.devRef .tc main_v65) = Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (W8_v65 m ρ c).trans (by rw [W7_v49 m ρ c]; rfl)

end Cert.KernelIdeal.NetValue

end
-- ==== Proof.RefTail.lean ====
/-
  The reference's host program, evaluated.

  The reference is one line of 121 host operations: the sources, destinations, degrees and norms of the messages, a
  dense product, one propagation, a relu — and then all of it once more for the second layer, the norms computed a
  second time from the same edge table. Cut into eleven stretches, each stretch is read at the buffers a later one
  consumes, as one of the shared graph-convolution operations (Spec) of the buffers it reads, and at the buffers it
  passes on. Chained from the launch memory, the second computation of the sources, destinations and norms gives the
  same functions of the edge table as the first, and the result buffer ends at the whole network `Gcn.gcn` of the six
  arguments. No arithmetic is opened, so this holds at any float instance.
-/
import proofs.«124687_j43611097924207_1_alg».proof.Proof.RefRun
import proofs.«124687_j43611097924207_1_alg».proof.Proof.Spec
import Idealize.ShloMosaic.Lib.Pipeline.Frame

noncomputable section

namespace Cert.ReferenceIdeal.HostValue

open Idealize.ShloMosaic Idealize.ShloMosaic.TcCoe Idealize.SL.Sem Idealize.ShloMosaic.StableHlo
open Cert.ReferenceIdeal Cert.ReferenceIdeal.Gen Cert.ReferenceIdeal.HostRun

variable {F : FTy → Type} [FloatOps F]

/-! ## One stretch at a time, from any contents `V` -/

/-! ### pre1a -/

theorem a1_v3 (V : Valuation τ sig (Elt F)) :
    after (pre1a (F := F)) V (Proc.devRef .tc main_v3) = Gcn.srcOf (V (Proc.devRef .tc main_arg1)) := by
  dsimp only [pre1a, TRef.nullary, TRef.unary, TRef.binary, TRef.ternary]; after_results; rfl
theorem a1_v6 (V : Valuation τ sig (Elt F)) :
    after (pre1a (F := F)) V (Proc.devRef .tc main_v6) = Gcn.dstOf (V (Proc.devRef .tc main_arg1)) := by
  dsimp only [pre1a, TRef.nullary, TRef.unary, TRef.binary, TRef.ternary]; after_results; rfl
theorem a1_v12 (V : Valuation τ sig (Elt F)) :
    after (pre1a (F := F)) V (Proc.devRef .tc main_v12) = cmpf .ogt (Gcn.degOf (V (Proc.devRef .tc main_arg1))) Gcn.zeroNodes := by
  dsimp only [pre1a, TRef.nullary, TRef.unary, TRef.binary, TRef.ternary]; after_results; rfl
theorem a1_v13 (V : Valuation τ sig (Elt F)) :
    after (pre1a (F := F)) V (Proc.devRef .tc main_v13) = Host.rsqrt (Gcn.degOf (V (Proc.devRef .tc main_arg1))) := by
  dsimp only [pre1a, TRef.nullary, TRef.unary, TRef.binary, TRef.ternary]; after_results; rfl
theorem a1_v14 (V : Valuation τ sig (Elt F)) :
    after (pre1a (F := F)) V (Proc.devRef .tc main_v14) = Gcn.zeroNodes := by
  dsimp only [pre1a, TRef.nullary, TRef.unary, TRef.binary, TRef.ternary]; after_results; rfl
theorem a1_keep_arg0 (V : Valuation τ sig (Elt F)) :
    after (pre1a (F := F)) V (Proc.devRef .tc main_arg0) = V (Proc.devRef .tc main_arg0) := by
  dsimp only [pre1a, TRef.nullary, TRef.unary, TRef.binary, TRef.ternary]; after_results
theorem a1_keep_arg1 (V : Valuation τ sig (Elt F)) :
    after (pre1a (F := F)) V (Proc.devRef .tc main_arg1) = V (Proc.devRef .tc main_arg1) := by
  dsimp only [pre1a, TRef.nullary, TRef.unary, TRef.binary, TRef.ternary]; after_results
theorem a1_keep_arg2 (V : Valuation τ sig (Elt F)) :
    after (pre1a (F := F)) V (Proc.devRef .tc main_arg2) = V (Proc.devRef .tc main_arg2) := by
  dsimp only [pre1a, TRef.nullary, TRef.unary, TRef.binary, TRef.ternary]; after_results
theorem a1_keep_arg3 (V : Valuation τ sig (Elt F)) :
    after (pre1a (F := F)) V (Proc.devRef .tc main_arg3) = V (Proc.devRef .tc main_arg3) := by
  dsimp only [pre1a, TRef.nullary, TRef.unary, TRef.binary, TRef.ternary]; after_results
theorem a1_keep_arg4 (V : Valuation τ sig (Elt F)) :
    after (pre1a (F := F)) V (Proc.devRef .tc main_arg4) = V (Proc.devRef .tc main_arg4) := by
  dsimp only [pre1a, TRef.nullary, TRef.unary, TRef.binary, TRef.ternary]; after_results
theorem a1_keep_arg5 (V : Valuation τ sig (Elt F)) :
    after (pre1a (F := F)) V (Proc.devRef .tc main_arg5) = V (Proc.devRef .tc main_arg5) := by
  dsimp only [pre1a, TRef.nullary, TRef.unary, TRef.binary, TRef.ternary]; after_results

/-! ### pre1b -/

theorem b1_v15 (V : Valuation τ sig (Elt F)) :
    after (pre1b (F := F)) V (Proc.devRef .tc main_v15) = Gcn.pickNodes (V (Proc.devRef .tc main_v12)) (V (Proc.devRef .tc main_v13)) (V (Proc.devRef .tc main_v14)) := by
  dsimp only [pre1b, TRef.nullary, TRef.unary, TRef.binary, TRef.ternary]; after_results_simp <;> rfl
theorem b1_keep_v3 (V : Valuation τ sig (Elt F)) :
    after (pre1b (F := F)) V (Proc.devRef .tc main_v3) = V (Proc.devRef .tc main_v3) := by
  dsimp only [pre1b, TRef.nullary, TRef.unary, TRef.binary, TRef.ternary]; after_results
theorem b1_keep_v6 (V : Valuation τ sig (Elt F)) :
    after (pre1b (F := F)) V (Proc.devRef .tc main_v6) = V (Proc.devRef .tc main_v6) := by
  dsimp only [pre1b, TRef.nullary, TRef.unary, TRef.binary, TRef.ternary]; after_results
theorem b1_keep_arg0 (V : Valuation τ sig (Elt F)) :
    after (pre1b (F := F)) V (Proc.devRef .tc main_arg0) = V (Proc.devRef .tc main_arg0) := by
  dsimp only [pre1b, TRef.nullary, TRef.unary, TRef.binary, TRef.ternary]; after_results
theorem b1_keep_arg1 (V : Valuation τ sig (Elt F)) :
    after (pre1b (F := F)) V (Proc.devRef .tc main_arg1) = V (Proc.devRef .tc main_arg1) := by
  dsimp only [pre1b, TRef.nullary, TRef.unary, TRef.binary, TRef.ternary]; after_results
theorem b1_keep_arg2 (V : Valuation τ sig (Elt F)) :
    after (pre1b (F := F)) V (Proc.devRef .tc main_arg2) = V (Proc.devRef .tc main_arg2) := by
  dsimp only [pre1b, TRef.nullary, TRef.unary, TRef.binary, TRef.ternary]; after_results
theorem b1_keep_arg3 (V : Valuation τ sig (Elt F)) :
    after (pre1b (F := F)) V (Proc.devRef .tc main_arg3) = V (Proc.devRef .tc main_arg3) := by
  dsimp only [pre1b, TRef.nullary, TRef.unary, TRef.binary, TRef.ternary]; after_results
theorem b1_keep_arg4 (V : Valuation τ sig (Elt F)) :
    after (pre1b (F := F)) V (Proc.devRef .tc main_arg4) = V (Proc.devRef .tc main_arg4) := by
  dsimp only [pre1b, TRef.nullary, TRef.unary, TRef.binary, TRef.ternary]; after_results
theorem b1_keep_arg5 (V : Valuation τ sig (Elt F)) :
    after (pre1b (F := F)) V (Proc.devRef .tc main_arg5) = V (Proc.devRef .tc main_arg5) := by
  dsimp only [pre1b, TRef.nullary, TRef.unary, TRef.binary, TRef.ternary]; after_results

/-! ### pre1c -/

theorem c1_v30 (V : Valuation τ sig (Elt F)) :
    after (pre1c (F := F)) V (Proc.devRef .tc main_v30) = Gcn.normFrom (V (Proc.devRef .tc main_v15)) (V (Proc.devRef .tc main_v3)) (V (Proc.devRef .tc main_v6)) := by
  dsimp only [pre1c, TRef.nullary, TRef.unary, TRef.binary, TRef.ternary]; after_results_simp <;> rfl
theorem c1_keep_v3 (V : Valuation τ sig (Elt F)) :
    after (pre1c (F := F)) V (Proc.devRef .tc main_v3) = V (Proc.devRef .tc main_v3) := by
  dsimp only [pre1c, TRef.nullary, TRef.unary, TRef.binary, TRef.ternary]; after_results
theorem c1_keep_v6 (V : Valuation τ sig (Elt F)) :
    after (pre1c (F := F)) V (Proc.devRef .tc main_v6) = V (Proc.devRef .tc main_v6) := by
  dsimp only [pre1c, TRef.nullary, TRef.unary, TRef.binary, TRef.ternary]; after_results
theorem c1_keep_arg0 (V : Valuation τ sig (Elt F)) :
    after (pre1c (F := F)) V (Proc.devRef .tc main_arg0) = V (Proc.devRef .tc main_arg0) := by
  dsimp only [pre1c, TRef.nullary, TRef.unary, TRef.binary, TRef.ternary]; after_results
theorem c1_keep_arg1 (V : Valuation τ sig (Elt F)) :
    after (pre1c (F := F)) V (Proc.devRef .tc main_arg1) = V (Proc.devRef .tc main_arg1) := by
  dsimp only [pre1c, TRef.nullary, TRef.unary, TRef.binary, TRef.ternary]; after_results
theorem c1_keep_arg2 (V : Valuation τ sig (Elt F)) :
    after (pre1c (F := F)) V (Proc.devRef .tc main_arg2) = V (Proc.devRef .tc main_arg2) := by
  dsimp only [pre1c, TRef.nullary, TRef.unary, TRef.binary, TRef.ternary]; after_results
theorem c1_keep_arg3 (V : Valuation τ sig (Elt F)) :
    after (pre1c (F := F)) V (Proc.devRef .tc main_arg3) = V (Proc.devRef .tc main_arg3) := by
  dsimp only [pre1c, TRef.nullary, TRef.unary, TRef.binary, TRef.ternary]; after_results
theorem c1_keep_arg4 (V : Valuation τ sig (Elt F)) :
    after (pre1c (F := F)) V (Proc.devRef .tc main_arg4) = V (Proc.devRef .tc main_arg4) := by
  dsimp only [pre1c, TRef.nullary, TRef.unary, TRef.binary, TRef.ternary]; after_results
theorem c1_keep_arg5 (V : Valuation τ sig (Elt F)) :
    after (pre1c (F := F)) V (Proc.devRef .tc main_arg5) = V (Proc.devRef .tc main_arg5) := by
  dsimp only [pre1c, TRef.nullary, TRef.unary, TRef.binary, TRef.ternary]; after_results

/-! ### dot1 -/

theorem d1_v31 (V : Valuation τ sig (Elt F)) :
    after (dot1 (F := F)) V (Proc.devRef .tc main_v31) = Gcn.proj128 (V (Proc.devRef .tc main_arg0)) (V (Proc.devRef .tc main_arg2)) := by
  dsimp only [dot1, TRef.nullary, TRef.unary, TRef.binary, TRef.ternary]; after_results_simp <;> rfl
theorem d1_keep_v3 (V : Valuation τ sig (Elt F)) :
    after (dot1 (F := F)) V (Proc.devRef .tc main_v3) = V (Proc.devRef .tc main_v3) := by
  dsimp only [dot1, TRef.nullary, TRef.unary, TRef.binary, TRef.ternary]; after_results
theorem d1_keep_v6 (V : Valuation τ sig (Elt F)) :
    after (dot1 (F := F)) V (Proc.devRef .tc main_v6) = V (Proc.devRef .tc main_v6) := by
  dsimp only [dot1, TRef.nullary, TRef.unary, TRef.binary, TRef.ternary]; after_results
theorem d1_keep_v30 (V : Valuation τ sig (Elt F)) :
    after (dot1 (F := F)) V (Proc.devRef .tc main_v30) = V (Proc.devRef .tc main_v30) := by
  dsimp only [dot1, TRef.nullary, TRef.unary, TRef.binary, TRef.ternary]; after_results
theorem d1_keep_arg1 (V : Valuation τ sig (Elt F)) :
    after (dot1 (F := F)) V (Proc.devRef .tc main_arg1) = V (Proc.devRef .tc main_arg1) := by
  dsimp only [dot1, TRef.nullary, TRef.unary, TRef.binary, TRef.ternary]; after_results
theorem d1_keep_arg3 (V : Valuation τ sig (Elt F)) :
    after (dot1 (F := F)) V (Proc.devRef .tc main_arg3) = V (Proc.devRef .tc main_arg3) := by
  dsimp only [dot1, TRef.nullary, TRef.unary, TRef.binary, TRef.ternary]; after_results
theorem d1_keep_arg4 (V : Valuation τ sig (Elt F)) :
    after (dot1 (F := F)) V (Proc.devRef .tc main_arg4) = V (Proc.devRef .tc main_arg4) := by
  dsimp only [dot1, TRef.nullary, TRef.unary, TRef.binary, TRef.ternary]; after_results
theorem d1_keep_arg5 (V : Valuation τ sig (Elt F)) :
    after (dot1 (F := F)) V (Proc.devRef .tc main_arg5) = V (Proc.devRef .tc main_arg5) := by
  dsimp only [dot1, TRef.nullary, TRef.unary, TRef.binary, TRef.ternary]; after_results

/-! ### tail1 -/

theorem t1_v47 (V : Valuation τ sig (Elt F)) :
    after (tail1 (F := F)) V (Proc.devRef .tc main_v47) = Gcn.layer128 (V (Proc.devRef .tc main_v31)) (V (Proc.devRef .tc main_v3)) (V (Proc.devRef .tc main_v6)) (V (Proc.devRef .tc main_v30)) (V (Proc.devRef .tc main_arg3)) := by
  dsimp only [tail1, TRef.nullary, TRef.unary, TRef.binary, TRef.ternary]; after_results_simp <;> rfl
theorem t1_keep_arg1 (V : Valuation τ sig (Elt F)) :
    after (tail1 (F := F)) V (Proc.devRef .tc main_arg1) = V (Proc.devRef .tc main_arg1) := by
  dsimp only [tail1, TRef.nullary, TRef.unary, TRef.binary, TRef.ternary]; after_results
theorem t1_keep_arg4 (V : Valuation τ sig (Elt F)) :
    after (tail1 (F := F)) V (Proc.devRef .tc main_arg4) = V (Proc.devRef .tc main_arg4) := by
  dsimp only [tail1, TRef.nullary, TRef.unary, TRef.binary, TRef.ternary]; after_results
theorem t1_keep_arg5 (V : Valuation τ sig (Elt F)) :
    after (tail1 (F := F)) V (Proc.devRef .tc main_arg5) = V (Proc.devRef .tc main_arg5) := by
  dsimp only [tail1, TRef.nullary, TRef.unary, TRef.binary, TRef.ternary]; after_results

/-! ### relu1 -/

theorem r1_v48 (V : Valuation τ sig (Elt F)) :
    after (relu1 (F := F)) V (Proc.devRef .tc main_v48) = Gcn.reluOf (V (Proc.devRef .tc main_v47)) := by
  dsimp only [relu1, TRef.nullary, TRef.unary, TRef.binary, TRef.ternary]; after_results_simp <;> rfl
theorem r1_keep_arg1 (V : Valuation τ sig (Elt F)) :
    after (relu1 (F := F)) V (Proc.devRef .tc main_arg1) = V (Proc.devRef .tc main_arg1) := by
  dsimp only [relu1, TRef.nullary, TRef.unary, TRef.binary, TRef.ternary]; after_results
theorem r1_keep_arg4 (V : Valuation τ sig (Elt F)) :
    after (relu1 (F := F)) V (Proc.devRef .tc main_arg4) = V (Proc.devRef .tc main_arg4) := by
  dsimp only [relu1, TRef.nullary, TRef.unary, TRef.binary, TRef.ternary]; after_results
theorem r1_keep_arg5 (V : Valuation τ sig (Elt F)) :
    after (relu1 (F := F)) V (Proc.devRef .tc main_arg5) = V (Proc.devRef .tc main_arg5) := by
  dsimp only [relu1, TRef.nullary, TRef.unary, TRef.binary, TRef.ternary]; after_results

/-! ### pre2a -/

theorem a2_v52 (V : Valuation τ sig (Elt F)) :
    after (pre2a (F := F)) V (Proc.devRef .tc main_v52) = Gcn.srcOf (V (Proc.devRef .tc main_arg1)) := by
  dsimp only [pre2a, TRef.nullary, TRef.unary, TRef.binary, TRef.ternary]; after_results; rfl
theorem a2_v55 (V : Valuation τ sig (Elt F)) :
    after (pre2a (F := F)) V (Proc.devRef .tc main_v55) = Gcn.dstOf (V (Proc.devRef .tc main_arg1)) := by
  dsimp only [pre2a, TRef.nullary, TRef.unary, TRef.binary, TRef.ternary]; after_results; rfl
theorem a2_v61 (V : Valuation τ sig (Elt F)) :
    after (pre2a (F := F)) V (Proc.devRef .tc main_v61) = cmpf .ogt (Gcn.degOf (V (Proc.devRef .tc main_arg1))) Gcn.zeroNodes := by
  dsimp only [pre2a, TRef.nullary, TRef.unary, TRef.binary, TRef.ternary]; after_results; rfl
theorem a2_v62 (V : Valuation τ sig (Elt F)) :
    after (pre2a (F := F)) V (Proc.devRef .tc main_v62) = Host.rsqrt (Gcn.degOf (V (Proc.devRef .tc main_arg1))) := by
  dsimp only [pre2a, TRef.nullary, TRef.unary, TRef.binary, TRef.ternary]; after_results; rfl
theorem a2_v63 (V : Valuation τ sig (Elt F)) :
    after (pre2a (F := F)) V (Proc.devRef .tc main_v63) = Gcn.zeroNodes := by
  dsimp only [pre2a, TRef.nullary, TRef.unary, TRef.binary, TRef.ternary]; after_results; rfl
theorem a2_keep_v48 (V : Valuation τ sig (Elt F)) :
    after (pre2a (F := F)) V (Proc.devRef .tc main_v48) = V (Proc.devRef .tc main_v48) := by
  dsimp only [pre2a, TRef.nullary, TRef.unary, TRef.binary, TRef.ternary]; after_results
theorem a2_keep_arg4 (V : Valuation τ sig (Elt F)) :
    after (pre2a (F := F)) V (Proc.devRef .tc main_arg4) = V (Proc.devRef .tc main_arg4) := by
  dsimp only [pre2a, TRef.nullary, TRef.unary, TRef.binary, TRef.ternary]; after_results
theorem a2_keep_arg5 (V : Valuation τ sig (Elt F)) :
    after (pre2a (F := F)) V (Proc.devRef .tc main_arg5) = V (Proc.devRef .tc main_arg5) := by
  dsimp only [pre2a, TRef.nullary, TRef.unary, TRef.binary, TRef.ternary]; after_results

/-! ### pre2b -/

theorem b2_v64 (V : Valuation τ sig (Elt F)) :
    after (pre2b (F := F)) V (Proc.devRef .tc main_v64) = Gcn.pickNodes (V (Proc.devRef .tc main_v61)) (V (Proc.devRef .tc main_v62)) (V (Proc.devRef .tc main_v63)) := by
  dsimp only [pre2b, TRef.nullary, TRef.unary, TRef.binary, TRef.ternary]; after_results_simp <;> rfl
theorem b2_keep_v52 (V : Valuation τ sig (Elt F)) :
    after (pre2b (F := F)) V (Proc.devRef .tc main_v52) = V (Proc.devRef .tc main_v52) := by
  dsimp only [pre2b, TRef.nullary, TRef.unary, TRef.binary, TRef.ternary]; after_results
theorem b2_keep_v55 (V : Valuation τ sig (Elt F)) :
    after (pre2b (F := F)) V (Proc.devRef .tc main_v55) = V (Proc.devRef .tc main_v55) := by
  dsimp only [pre2b, TRef.nullary, TRef.unary, TRef.binary, TRef.ternary]; after_results
theorem b2_keep_v48 (V : Valuation τ sig (Elt F)) :
    after (pre2b (F := F)) V (Proc.devRef .tc main_v48) = V (Proc.devRef .tc main_v48) := by
  dsimp only [pre2b, TRef.nullary, TRef.unary, TRef.binary, TRef.ternary]; after_results
theorem b2_keep_arg4 (V : Valuation τ sig (Elt F)) :
    after (pre2b (F := F)) V (Proc.devRef .tc main_arg4) = V (Proc.devRef .tc main_arg4) := by
  dsimp only [pre2b, TRef.nullary, TRef.unary, TRef.binary, TRef.ternary]; after_results
theorem b2_keep_arg5 (V : Valuation τ sig (Elt F)) :
    after (pre2b (F := F)) V (Proc.devRef .tc main_arg5) = V (Proc.devRef .tc main_arg5) := by
  dsimp only [pre2b, TRef.nullary, TRef.unary, TRef.binary, TRef.ternary]; after_results

/-! ### pre2c -/

theorem c2_v79 (V : Valuation τ sig (Elt F)) :
    after (pre2c (F := F)) V (Proc.devRef .tc main_v79) = Gcn.normFrom (V (Proc.devRef .tc main_v64)) (V (Proc.devRef .tc main_v52)) (V (Proc.devRef .tc main_v55)) := by
  dsimp only [pre2c, TRef.nullary, TRef.unary, TRef.binary, TRef.ternary]; after_results_simp <;> rfl
theorem c2_keep_v52 (V : Valuation τ sig (Elt F)) :
    after (pre2c (F := F)) V (Proc.devRef .tc main_v52) = V (Proc.devRef .tc main_v52) := by
  dsimp only [pre2c, TRef.nullary, TRef.unary, TRef.binary, TRef.ternary]; after_results
theorem c2_keep_v55 (V : Valuation τ sig (Elt F)) :
    after (pre2c (F := F)) V (Proc.devRef .tc main_v55) = V (Proc.devRef .tc main_v55) := by
  dsimp only [pre2c, TRef.nullary, TRef.unary, TRef.binary, TRef.ternary]; after_results
theorem c2_keep_v48 (V : Valuation τ sig (Elt F)) :
    after (pre2c (F := F)) V (Proc.devRef .tc main_v48) = V (Proc.devRef .tc main_v48) := by
  dsimp only [pre2c, TRef.nullary, TRef.unary, TRef.binary, TRef.ternary]; after_results
theorem c2_keep_arg4 (V : Valuation τ sig (Elt F)) :
    after (pre2c (F := F)) V (Proc.devRef .tc main_arg4) = V (Proc.devRef .tc main_arg4) := by
  dsimp only [pre2c, TRef.nullary, TRef.unary, TRef.binary, TRef.ternary]; after_results
theorem c2_keep_arg5 (V : Valuation τ sig (Elt F)) :
    after (pre2c (F := F)) V (Proc.devRef .tc main_arg5) = V (Proc.devRef .tc main_arg5) := by
  dsimp only [pre2c, TRef.nullary, TRef.unary, TRef.binary, TRef.ternary]; after_results

/-! ### dot2 -/

theorem d2_v80 (V : Valuation τ sig (Elt F)) :
    after (dot2 (F := F)) V (Proc.devRef .tc main_v80) = Gcn.proj64 (V (Proc.devRef .tc main_v48)) (V (Proc.devRef .tc main_arg4)) := by
  dsimp only [dot2, TRef.nullary, TRef.unary, TRef.binary, TRef.ternary]; after_results_simp <;> rfl
theorem d2_keep_v52 (V : Valuation τ sig (Elt F)) :
    after (dot2 (F := F)) V (Proc.devRef .tc main_v52) = V (Proc.devRef .tc main_v52) := by
  dsimp only [dot2, TRef.nullary, TRef.unary, TRef.binary, TRef.ternary]; after_results
theorem d2_keep_v55 (V : Valuation τ sig (Elt F)) :
    after (dot2 (F := F)) V (Proc.devRef .tc main_v55) = V (Proc.devRef .tc main_v55) := by
  dsimp only [dot2, TRef.nullary, TRef.unary, TRef.binary, TRef.ternary]; after_results
theorem d2_keep_v79 (V : Valuation τ sig (Elt F)) :
    after (dot2 (F := F)) V (Proc.devRef .tc main_v79) = V (Proc.devRef .tc main_v79) := by
  dsimp only [dot2, TRef.nullary, TRef.unary, TRef.binary, TRef.ternary]; after_results
theorem d2_keep_arg5 (V : Valuation τ sig (Elt F)) :
    after (dot2 (F := F)) V (Proc.devRef .tc main_arg5) = V (Proc.devRef .tc main_arg5) := by
  dsimp only [dot2, TRef.nullary, TRef.unary, TRef.binary, TRef.ternary]; after_results

/-! ### tail2 -/

theorem t2_v96 (V : Valuation τ sig (Elt F)) :
    after (tail2 (F := F)) V (Proc.devRef .tc main_v96) = Gcn.layer64 (V (Proc.devRef .tc main_v80)) (V (Proc.devRef .tc main_v52)) (V (Proc.devRef .tc main_v55)) (V (Proc.devRef .tc main_v79)) (V (Proc.devRef .tc main_arg5)) := by
  dsimp only [tail2, TRef.nullary, TRef.unary, TRef.binary, TRef.ternary]; after_results_simp <;> rfl

/-! ### No stretch writes an argument -/

theorem d1_keep_arg0 (V : Valuation τ sig (Elt F)) :
    after (dot1 (F := F)) V (Proc.devRef .tc main_arg0) = V (Proc.devRef .tc main_arg0) := by
  dsimp only [dot1, TRef.nullary, TRef.unary, TRef.binary, TRef.ternary]; after_results
theorem d1_keep_arg2 (V : Valuation τ sig (Elt F)) :
    after (dot1 (F := F)) V (Proc.devRef .tc main_arg2) = V (Proc.devRef .tc main_arg2) := by
  dsimp only [dot1, TRef.nullary, TRef.unary, TRef.binary, TRef.ternary]; after_results
theorem t1_keep_arg0 (V : Valuation τ sig (Elt F)) :
    after (tail1 (F := F)) V (Proc.devRef .tc main_arg0) = V (Proc.devRef .tc main_arg0) := by
  dsimp only [tail1, TRef.nullary, TRef.unary, TRef.binary, TRef.ternary]; after_results
theorem t1_keep_arg2 (V : Valuation τ sig (Elt F)) :
    after (tail1 (F := F)) V (Proc.devRef .tc main_arg2) = V (Proc.devRef .tc main_arg2) := by
  dsimp only [tail1, TRef.nullary, TRef.unary, TRef.binary, TRef.ternary]; after_results
theorem t1_keep_arg3 (V : Valuation τ sig (Elt F)) :
    after (tail1 (F := F)) V (Proc.devRef .tc main_arg3) = V (Proc.devRef .tc main_arg3) := by
  dsimp only [tail1, TRef.nullary, TRef.unary, TRef.binary, TRef.ternary]; after_results
theorem r1_keep_arg0 (V : Valuation τ sig (Elt F)) :
    after (relu1 (F := F)) V (Proc.devRef .tc main_arg0) = V (Proc.devRef .tc main_arg0) := by
  dsimp only [relu1, TRef.nullary, TRef.unary, TRef.binary, TRef.ternary]; after_results
theorem r1_keep_arg2 (V : Valuation τ sig (Elt F)) :
    after (relu1 (F := F)) V (Proc.devRef .tc main_arg2) = V (Proc.devRef .tc main_arg2) := by
  dsimp only [relu1, TRef.nullary, TRef.unary, TRef.binary, TRef.ternary]; after_results
theorem r1_keep_arg3 (V : Valuation τ sig (Elt F)) :
    after (relu1 (F := F)) V (Proc.devRef .tc main_arg3) = V (Proc.devRef .tc main_arg3) := by
  dsimp only [relu1, TRef.nullary, TRef.unary, TRef.binary, TRef.ternary]; after_results
theorem a2_keep_arg0 (V : Valuation τ sig (Elt F)) :
    after (pre2a (F := F)) V (Proc.devRef .tc main_arg0) = V (Proc.devRef .tc main_arg0) := by
  dsimp only [pre2a, TRef.nullary, TRef.unary, TRef.binary, TRef.ternary]; after_results
theorem a2_keep_arg1 (V : Valuation τ sig (Elt F)) :
    after (pre2a (F := F)) V (Proc.devRef .tc main_arg1) = V (Proc.devRef .tc main_arg1) := by
  dsimp only [pre2a, TRef.nullary, TRef.unary, TRef.binary, TRef.ternary]; after_results
theorem a2_keep_arg2 (V : Valuation τ sig (Elt F)) :
    after (pre2a (F := F)) V (Proc.devRef .tc main_arg2) = V (Proc.devRef .tc main_arg2) := by
  dsimp only [pre2a, TRef.nullary, TRef.unary, TRef.binary, TRef.ternary]; after_results
theorem a2_keep_arg3 (V : Valuation τ sig (Elt F)) :
    after (pre2a (F := F)) V (Proc.devRef .tc main_arg3) = V (Proc.devRef .tc main_arg3) := by
  dsimp only [pre2a, TRef.nullary, TRef.unary, TRef.binary, TRef.ternary]; after_results
theorem b2_keep_arg0 (V : Valuation τ sig (Elt F)) :
    after (pre2b (F := F)) V (Proc.devRef .tc main_arg0) = V (Proc.devRef .tc main_arg0) := by
  dsimp only [pre2b, TRef.nullary, TRef.unary, TRef.binary, TRef.ternary]; after_results
theorem b2_keep_arg1 (V : Valuation τ sig (Elt F)) :
    after (pre2b (F := F)) V (Proc.devRef .tc main_arg1) = V (Proc.devRef .tc main_arg1) := by
  dsimp only [pre2b, TRef.nullary, TRef.unary, TRef.binary, TRef.ternary]; after_results
theorem b2_keep_arg2 (V : Valuation τ sig (Elt F)) :
    after (pre2b (F := F)) V (Proc.devRef .tc main_arg2) = V (Proc.devRef .tc main_arg2) := by
  dsimp only [pre2b, TRef.nullary, TRef.unary, TRef.binary, TRef.ternary]; after_results
theorem b2_keep_arg3 (V : Valuation τ sig (Elt F)) :
    after (pre2b (F := F)) V (Proc.devRef .tc main_arg3) = V (Proc.devRef .tc main_arg3) := by
  dsimp only [pre2b, TRef.nullary, TRef.unary, TRef.binary, TRef.ternary]; after_results
theorem c2_keep_arg0 (V : Valuation τ sig (Elt F)) :
    after (pre2c (F := F)) V (Proc.devRef .tc main_arg0) = V (Proc.devRef .tc main_arg0) := by
  dsimp only [pre2c, TRef.nullary, TRef.unary, TRef.binary, TRef.ternary]; after_results
theorem c2_keep_arg1 (V : Valuation τ sig (Elt F)) :
    after (pre2c (F := F)) V (Proc.devRef .tc main_arg1) = V (Proc.devRef .tc main_arg1) := by
  dsimp only [pre2c, TRef.nullary, TRef.unary, TRef.binary, TRef.ternary]; after_results
theorem c2_keep_arg2 (V : Valuation τ sig (Elt F)) :
    after (pre2c (F := F)) V (Proc.devRef .tc main_arg2) = V (Proc.devRef .tc main_arg2) := by
  dsimp only [pre2c, TRef.nullary, TRef.unary, TRef.binary, TRef.ternary]; after_results
theorem c2_keep_arg3 (V : Valuation τ sig (Elt F)) :
    after (pre2c (F := F)) V (Proc.devRef .tc main_arg3) = V (Proc.devRef .tc main_arg3) := by
  dsimp only [pre2c, TRef.nullary, TRef.unary, TRef.binary, TRef.ternary]; after_results
theorem d2_keep_arg0 (V : Valuation τ sig (Elt F)) :
    after (dot2 (F := F)) V (Proc.devRef .tc main_arg0) = V (Proc.devRef .tc main_arg0) := by
  dsimp only [dot2, TRef.nullary, TRef.unary, TRef.binary, TRef.ternary]; after_results
theorem d2_keep_arg1 (V : Valuation τ sig (Elt F)) :
    after (dot2 (F := F)) V (Proc.devRef .tc main_arg1) = V (Proc.devRef .tc main_arg1) := by
  dsimp only [dot2, TRef.nullary, TRef.unary, TRef.binary, TRef.ternary]; after_results
theorem d2_keep_arg2 (V : Valuation τ sig (Elt F)) :
    after (dot2 (F := F)) V (Proc.devRef .tc main_arg2) = V (Proc.devRef .tc main_arg2) := by
  dsimp only [dot2, TRef.nullary, TRef.unary, TRef.binary, TRef.ternary]; after_results
theorem d2_keep_arg3 (V : Valuation τ sig (Elt F)) :
    after (dot2 (F := F)) V (Proc.devRef .tc main_arg3) = V (Proc.devRef .tc main_arg3) := by
  dsimp only [dot2, TRef.nullary, TRef.unary, TRef.binary, TRef.ternary]; after_results
theorem d2_keep_arg4 (V : Valuation τ sig (Elt F)) :
    after (dot2 (F := F)) V (Proc.devRef .tc main_arg4) = V (Proc.devRef .tc main_arg4) := by
  dsimp only [dot2, TRef.nullary, TRef.unary, TRef.binary, TRef.ternary]; after_results
theorem t2_keep_arg0 (V : Valuation τ sig (Elt F)) :
    after (tail2 (F := F)) V (Proc.devRef .tc main_arg0) = V (Proc.devRef .tc main_arg0) := by
  dsimp only [tail2, TRef.nullary, TRef.unary, TRef.binary, TRef.ternary]; after_results
theorem t2_keep_arg1 (V : Valuation τ sig (Elt F)) :
    after (tail2 (F := F)) V (Proc.devRef .tc main_arg1) = V (Proc.devRef .tc main_arg1) := by
  dsimp only [tail2, TRef.nullary, TRef.unary, TRef.binary, TRef.ternary]; after_results
theorem t2_keep_arg2 (V : Valuation τ sig (Elt F)) :
    after (tail2 (F := F)) V (Proc.devRef .tc main_arg2) = V (Proc.devRef .tc main_arg2) := by
  dsimp only [tail2, TRef.nullary, TRef.unary, TRef.binary, TRef.ternary]; after_results
theorem t2_keep_arg3 (V : Valuation τ sig (Elt F)) :
    after (tail2 (F := F)) V (Proc.devRef .tc main_arg3) = V (Proc.devRef .tc main_arg3) := by
  dsimp only [tail2, TRef.nullary, TRef.unary, TRef.binary, TRef.ternary]; after_results
theorem t2_keep_arg4 (V : Valuation τ sig (Elt F)) :
    after (tail2 (F := F)) V (Proc.devRef .tc main_arg4) = V (Proc.devRef .tc main_arg4) := by
  dsimp only [tail2, TRef.nullary, TRef.unary, TRef.binary, TRef.ternary]; after_results
theorem t2_keep_arg5 (V : Valuation τ sig (Elt F)) :
    after (tail2 (F := F)) V (Proc.devRef .tc main_arg5) = V (Proc.devRef .tc main_arg5) := by
  dsimp only [tail2, TRef.nullary, TRef.unary, TRef.binary, TRef.ternary]; after_results

/-! ## The contents after each stretch, from the launch memory -/

variable (m : (ℓ : Loc nD τ sig) → Buf (Elt F) ℓ) (c : Dev nD)

/-- The buffers at launch, and after each of the eleven stretches in turn. -/
abbrev R0 : Valuation τ sig (Elt F) := launchContents m c
abbrev R1 : Valuation τ sig (Elt F) := after (pre1a (F := F)) (R0 m c)
abbrev R2 : Valuation τ sig (Elt F) := after (pre1b (F := F)) (R1 m c)
abbrev R3 : Valuation τ sig (Elt F) := after (pre1c (F := F)) (R2 m c)
abbrev R4 : Valuation τ sig (Elt F) := after (dot1 (F := F)) (R3 m c)
abbrev R5 : Valuation τ sig (Elt F) := after (tail1 (F := F)) (R4 m c)
abbrev R6 : Valuation τ sig (Elt F) := after (relu1 (F := F)) (R5 m c)
abbrev R7 : Valuation τ sig (Elt F) := after (pre2a (F := F)) (R6 m c)
abbrev R8 : Valuation τ sig (Elt F) := after (pre2b (F := F)) (R7 m c)
abbrev R9 : Valuation τ sig (Elt F) := after (pre2c (F := F)) (R8 m c)
abbrev R10 : Valuation τ sig (Elt F) := after (dot2 (F := F)) (R9 m c)
abbrev R11 : Valuation τ sig (Elt F) := after (tail2 (F := F)) (R10 m c)

theorem R1_v3 : R1 m c (Proc.devRef .tc main_v3) = Gcn.srcOf (m ((c.tc : Thread nD τ).loc main_arg1)) :=
  a1_v3 (R0 m c)
theorem R1_v6 : R1 m c (Proc.devRef .tc main_v6) = Gcn.dstOf (m ((c.tc : Thread nD τ).loc main_arg1)) :=
  a1_v6 (R0 m c)
theorem R1_v12 : R1 m c (Proc.devRef .tc main_v12) = cmpf .ogt (Gcn.degOf (m ((c.tc : Thread nD τ).loc main_arg1))) Gcn.zeroNodes :=
  a1_v12 (R0 m c)
theorem R1_v13 : R1 m c (Proc.devRef .tc main_v13) = Host.rsqrt (Gcn.degOf (m ((c.tc : Thread nD τ).loc main_arg1))) :=
  a1_v13 (R0 m c)
theorem R1_v14 : R1 m c (Proc.devRef .tc main_v14) = (Gcn.zeroNodes : Gcn.NodeVal F) :=
  a1_v14 (R0 m c)
theorem R1_arg0 : R1 m c (Proc.devRef .tc main_arg0) = (m ((c.tc : Thread nD τ).loc main_arg0)) :=
  a1_keep_arg0 (R0 m c)
theorem R1_arg1 : R1 m c (Proc.devRef .tc main_arg1) = (m ((c.tc : Thread nD τ).loc main_arg1)) :=
  a1_keep_arg1 (R0 m c)
theorem R1_arg2 : R1 m c (Proc.devRef .tc main_arg2) = (m ((c.tc : Thread nD τ).loc main_arg2)) :=
  a1_keep_arg2 (R0 m c)
theorem R1_arg3 : R1 m c (Proc.devRef .tc main_arg3) = (m ((c.tc : Thread nD τ).loc main_arg3)) :=
  a1_keep_arg3 (R0 m c)
theorem R1_arg4 : R1 m c (Proc.devRef .tc main_arg4) = (m ((c.tc : Thread nD τ).loc main_arg4)) :=
  a1_keep_arg4 (R0 m c)
theorem R1_arg5 : R1 m c (Proc.devRef .tc main_arg5) = (m ((c.tc : Thread nD τ).loc main_arg5)) :=
  a1_keep_arg5 (R0 m c)
theorem R2_v15 : R2 m c (Proc.devRef .tc main_v15) = Gcn.dinvOf (m ((c.tc : Thread nD τ).loc main_arg1)) :=
  (b1_v15 (R1 m c)).trans (by rw [R1_v12 m c, R1_v13 m c, R1_v14 m c]; rfl)
theorem R2_v3 : R2 m c (Proc.devRef .tc main_v3) = Gcn.srcOf (m ((c.tc : Thread nD τ).loc main_arg1)) :=
  (b1_keep_v3 (R1 m c)).trans (R1_v3 m c)
theorem R2_v6 : R2 m c (Proc.devRef .tc main_v6) = Gcn.dstOf (m ((c.tc : Thread nD τ).loc main_arg1)) :=
  (b1_keep_v6 (R1 m c)).trans (R1_v6 m c)
theorem R2_arg0 : R2 m c (Proc.devRef .tc main_arg0) = (m ((c.tc : Thread nD τ).loc main_arg0)) :=
  (b1_keep_arg0 (R1 m c)).trans (R1_arg0 m c)
theorem R2_arg1 : R2 m c (Proc.devRef .tc main_arg1) = (m ((c.tc : Thread nD τ).loc main_arg1)) :=
  (b1_keep_arg1 (R1 m c)).trans (R1_arg1 m c)
theorem R2_arg2 : R2 m c (Proc.devRef .tc main_arg2) = (m ((c.tc : Thread nD τ).loc main_arg2)) :=
  (b1_keep_arg2 (R1 m c)).trans (R1_arg2 m c)
theorem R2_arg3 : R2 m c (Proc.devRef .tc main_arg3) = (m ((c.tc : Thread nD τ).loc main_arg3)) :=
  (b1_keep_arg3 (R1 m c)).trans (R1_arg3 m c)
theorem R2_arg4 : R2 m c (Proc.devRef .tc main_arg4) = (m ((c.tc : Thread nD τ).loc main_arg4)) :=
  (b1_keep_arg4 (R1 m c)).trans (R1_arg4 m c)
theorem R2_arg5 : R2 m c (Proc.devRef .tc main_arg5) = (m ((c.tc : Thread nD τ).loc main_arg5)) :=
  (b1_keep_arg5 (R1 m c)).trans (R1_arg5 m c)
theorem R3_v30 : R3 m c (Proc.devRef .tc main_v30) = Gcn.normOf (m ((c.tc : Thread nD τ).loc main_arg1)) :=
  (c1_v30 (R2 m c)).trans (by rw [R2_v15 m c, R2_v3 m c, R2_v6 m c]; rfl)
theorem R3_v3 : R3 m c (Proc.devRef .tc main_v3) = Gcn.srcOf (m ((c.tc : Thread nD τ).loc main_arg1)) :=
  (c1_keep_v3 (R2 m c)).trans (R2_v3 m c)
theorem R3_v6 : R3 m c (Proc.devRef .tc main_v6) = Gcn.dstOf (m ((c.tc : Thread nD τ).loc main_arg1)) :=
  (c1_keep_v6 (R2 m c)).trans (R2_v6 m c)
theorem R3_arg0 : R3 m c (Proc.devRef .tc main_arg0) = (m ((c.tc : Thread nD τ).loc main_arg0)) :=
  (c1_keep_arg0 (R2 m c)).trans (R2_arg0 m c)
theorem R3_arg1 : R3 m c (Proc.devRef .tc main_arg1) = (m ((c.tc : Thread nD τ).loc main_arg1)) :=
  (c1_keep_arg1 (R2 m c)).trans (R2_arg1 m c)
theorem R3_arg2 : R3 m c (Proc.devRef .tc main_arg2) = (m ((c.tc : Thread nD τ).loc main_arg2)) :=
  (c1_keep_arg2 (R2 m c)).trans (R2_arg2 m c)
theorem R3_arg3 : R3 m c (Proc.devRef .tc main_arg3) = (m ((c.tc : Thread nD τ).loc main_arg3)) :=
  (c1_keep_arg3 (R2 m c)).trans (R2_arg3 m c)
theorem R3_arg4 : R3 m c (Proc.devRef .tc main_arg4) = (m ((c.tc : Thread nD τ).loc main_arg4)) :=
  (c1_keep_arg4 (R2 m c)).trans (R2_arg4 m c)
theorem R3_arg5 : R3 m c (Proc.devRef .tc main_arg5) = (m ((c.tc : Thread nD τ).loc main_arg5)) :=
  (c1_keep_arg5 (R2 m c)).trans (R2_arg5 m c)
theorem R4_v31 : R4 m c (Proc.devRef .tc main_v31) = Gcn.proj128 (m ((c.tc : Thread nD τ).loc main_arg0)) (m ((c.tc : Thread nD τ).loc main_arg2)) :=
  (d1_v31 (R3 m c)).trans (by rw [R3_arg0 m c, R3_arg2 m c])
theorem R4_v3 : R4 m c (Proc.devRef .tc main_v3) = Gcn.srcOf (m ((c.tc : Thread nD τ).loc main_arg1)) :=
  (d1_keep_v3 (R3 m c)).trans (R3_v3 m c)
theorem R4_v6 : R4 m c (Proc.devRef .tc main_v6) = Gcn.dstOf (m ((c.tc : Thread nD τ).loc main_arg1)) :=
  (d1_keep_v6 (R3 m c)).trans (R3_v6 m c)
theorem R4_v30 : R4 m c (Proc.devRef .tc main_v30) = Gcn.normOf (m ((c.tc : Thread nD τ).loc main_arg1)) :=
  (d1_keep_v30 (R3 m c)).trans (R3_v30 m c)
theorem R4_arg1 : R4 m c (Proc.devRef .tc main_arg1) = (m ((c.tc : Thread nD τ).loc main_arg1)) :=
  (d1_keep_arg1 (R3 m c)).trans (R3_arg1 m c)
theorem R4_arg3 : R4 m c (Proc.devRef .tc main_arg3) = (m ((c.tc : Thread nD τ).loc main_arg3)) :=
  (d1_keep_arg3 (R3 m c)).trans (R3_arg3 m c)
theorem R4_arg4 : R4 m c (Proc.devRef .tc main_arg4) = (m ((c.tc : Thread nD τ).loc main_arg4)) :=
  (d1_keep_arg4 (R3 m c)).trans (R3_arg4 m c)
theorem R4_arg5 : R4 m c (Proc.devRef .tc main_arg5) = (m ((c.tc : Thread nD τ).loc main_arg5)) :=
  (d1_keep_arg5 (R3 m c)).trans (R3_arg5 m c)
theorem R5_v47 : R5 m c (Proc.devRef .tc main_v47) = (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3))) :=
  (t1_v47 (R4 m c)).trans (by rw [R4_v31 m c, R4_v3 m c, R4_v6 m c, R4_v30 m c, R4_arg3 m c])
theorem R5_arg1 : R5 m c (Proc.devRef .tc main_arg1) = (m ((c.tc : Thread nD τ).loc main_arg1)) :=
  (t1_keep_arg1 (R4 m c)).trans (R4_arg1 m c)
theorem R5_arg4 : R5 m c (Proc.devRef .tc main_arg4) = (m ((c.tc : Thread nD τ).loc main_arg4)) :=
  (t1_keep_arg4 (R4 m c)).trans (R4_arg4 m c)
theorem R5_arg5 : R5 m c (Proc.devRef .tc main_arg5) = (m ((c.tc : Thread nD τ).loc main_arg5)) :=
  (t1_keep_arg5 (R4 m c)).trans (R4_arg5 m c)
theorem R6_v48 : R6 m c (Proc.devRef .tc main_v48) = (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) :=
  (r1_v48 (R5 m c)).trans (by rw [R5_v47 m c])
theorem R6_arg1 : R6 m c (Proc.devRef .tc main_arg1) = (m ((c.tc : Thread nD τ).loc main_arg1)) :=
  (r1_keep_arg1 (R5 m c)).trans (R5_arg1 m c)
theorem R6_arg4 : R6 m c (Proc.devRef .tc main_arg4) = (m ((c.tc : Thread nD τ).loc main_arg4)) :=
  (r1_keep_arg4 (R5 m c)).trans (R5_arg4 m c)
theorem R6_arg5 : R6 m c (Proc.devRef .tc main_arg5) = (m ((c.tc : Thread nD τ).loc main_arg5)) :=
  (r1_keep_arg5 (R5 m c)).trans (R5_arg5 m c)
theorem R7_v52 : R7 m c (Proc.devRef .tc main_v52) = Gcn.srcOf (m ((c.tc : Thread nD τ).loc main_arg1)) :=
  (a2_v52 (R6 m c)).trans (by rw [R6_arg1 m c])
theorem R7_v55 : R7 m c (Proc.devRef .tc main_v55) = Gcn.dstOf (m ((c.tc : Thread nD τ).loc main_arg1)) :=
  (a2_v55 (R6 m c)).trans (by rw [R6_arg1 m c])
theorem R7_v61 : R7 m c (Proc.devRef .tc main_v61) = cmpf .ogt (Gcn.degOf (m ((c.tc : Thread nD τ).loc main_arg1))) Gcn.zeroNodes :=
  (a2_v61 (R6 m c)).trans (by rw [R6_arg1 m c])
theorem R7_v62 : R7 m c (Proc.devRef .tc main_v62) = Host.rsqrt (Gcn.degOf (m ((c.tc : Thread nD τ).loc main_arg1))) :=
  (a2_v62 (R6 m c)).trans (by rw [R6_arg1 m c])
theorem R7_v63 : R7 m c (Proc.devRef .tc main_v63) = (Gcn.zeroNodes : Gcn.NodeVal F) :=
  a2_v63 (R6 m c)
theorem R7_v48 : R7 m c (Proc.devRef .tc main_v48) = (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) :=
  (a2_keep_v48 (R6 m c)).trans (R6_v48 m c)
theorem R7_arg4 : R7 m c (Proc.devRef .tc main_arg4) = (m ((c.tc : Thread nD τ).loc main_arg4)) :=
  (a2_keep_arg4 (R6 m c)).trans (R6_arg4 m c)
theorem R7_arg5 : R7 m c (Proc.devRef .tc main_arg5) = (m ((c.tc : Thread nD τ).loc main_arg5)) :=
  (a2_keep_arg5 (R6 m c)).trans (R6_arg5 m c)
theorem R8_v64 : R8 m c (Proc.devRef .tc main_v64) = Gcn.dinvOf (m ((c.tc : Thread nD τ).loc main_arg1)) :=
  (b2_v64 (R7 m c)).trans (by rw [R7_v61 m c, R7_v62 m c, R7_v63 m c]; rfl)
theorem R8_v52 : R8 m c (Proc.devRef .tc main_v52) = Gcn.srcOf (m ((c.tc : Thread nD τ).loc main_arg1)) :=
  (b2_keep_v52 (R7 m c)).trans (R7_v52 m c)
theorem R8_v55 : R8 m c (Proc.devRef .tc main_v55) = Gcn.dstOf (m ((c.tc : Thread nD τ).loc main_arg1)) :=
  (b2_keep_v55 (R7 m c)).trans (R7_v55 m c)
theorem R8_v48 : R8 m c (Proc.devRef .tc main_v48) = (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) :=
  (b2_keep_v48 (R7 m c)).trans (R7_v48 m c)
theorem R8_arg4 : R8 m c (Proc.devRef .tc main_arg4) = (m ((c.tc : Thread nD τ).loc main_arg4)) :=
  (b2_keep_arg4 (R7 m c)).trans (R7_arg4 m c)
theorem R8_arg5 : R8 m c (Proc.devRef .tc main_arg5) = (m ((c.tc : Thread nD τ).loc main_arg5)) :=
  (b2_keep_arg5 (R7 m c)).trans (R7_arg5 m c)
theorem R9_v79 : R9 m c (Proc.devRef .tc main_v79) = Gcn.normOf (m ((c.tc : Thread nD τ).loc main_arg1)) :=
  (c2_v79 (R8 m c)).trans (by rw [R8_v64 m c, R8_v52 m c, R8_v55 m c]; rfl)
theorem R9_v52 : R9 m c (Proc.devRef .tc main_v52) = Gcn.srcOf (m ((c.tc : Thread nD τ).loc main_arg1)) :=
  (c2_keep_v52 (R8 m c)).trans (R8_v52 m c)
theorem R9_v55 : R9 m c (Proc.devRef .tc main_v55) = Gcn.dstOf (m ((c.tc : Thread nD τ).loc main_arg1)) :=
  (c2_keep_v55 (R8 m c)).trans (R8_v55 m c)
theorem R9_v48 : R9 m c (Proc.devRef .tc main_v48) = (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) :=
  (c2_keep_v48 (R8 m c)).trans (R8_v48 m c)
theorem R9_arg4 : R9 m c (Proc.devRef .tc main_arg4) = (m ((c.tc : Thread nD τ).loc main_arg4)) :=
  (c2_keep_arg4 (R8 m c)).trans (R8_arg4 m c)
theorem R9_arg5 : R9 m c (Proc.devRef .tc main_arg5) = (m ((c.tc : Thread nD τ).loc main_arg5)) :=
  (c2_keep_arg5 (R8 m c)).trans (R8_arg5 m c)
theorem R10_v80 : R10 m c (Proc.devRef .tc main_v80) = Gcn.proj64 (Gcn.reluOf (Gcn.layer128 (Gcn.proj128 (m ((c.tc : Thread nD τ).loc main_arg0)) (m ((c.tc : Thread nD τ).loc main_arg2))) (Gcn.srcOf (m ((c.tc : Thread nD τ).loc main_arg1))) (Gcn.dstOf (m ((c.tc : Thread nD τ).loc main_arg1))) (Gcn.normOf (m ((c.tc : Thread nD τ).loc main_arg1))) (m ((c.tc : Thread nD τ).loc main_arg3)))) (m ((c.tc : Thread nD τ).loc main_arg4)) :=
  (d2_v80 (R9 m c)).trans (by rw [R9_v48 m c, R9_arg4 m c])
theorem R10_v52 : R10 m c (Proc.devRef .tc main_v52) = Gcn.srcOf (m ((c.tc : Thread nD τ).loc main_arg1)) :=
  (d2_keep_v52 (R9 m c)).trans (R9_v52 m c)
theorem R10_v55 : R10 m c (Proc.devRef .tc main_v55) = Gcn.dstOf (m ((c.tc : Thread nD τ).loc main_arg1)) :=
  (d2_keep_v55 (R9 m c)).trans (R9_v55 m c)
theorem R10_v79 : R10 m c (Proc.devRef .tc main_v79) = Gcn.normOf (m ((c.tc : Thread nD τ).loc main_arg1)) :=
  (d2_keep_v79 (R9 m c)).trans (R9_v79 m c)
theorem R10_arg5 : R10 m c (Proc.devRef .tc main_arg5) = (m ((c.tc : Thread nD τ).loc main_arg5)) :=
  (d2_keep_arg5 (R9 m c)).trans (R9_arg5 m c)
theorem R11_v96 : R11 m c (Proc.devRef .tc main_v96) = Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (t2_v96 (R10 m c)).trans (by rw [R10_v80 m c, R10_v52 m c, R10_v55 m c, R10_v79 m c, R10_arg5 m c]; rfl)

/-- The whole line is its eleven stretches run in turn. -/
theorem after_ops (V : Valuation τ sig (Elt F)) :
    after (ops (F := F)) V = after tail2 (after dot2 (after pre2c (after pre2b (after pre2a (after relu1 (after tail1 (after dot1 (after pre1c (after pre1b (after pre1a V)))))))))) := by
  simp only [ops, StableHlo.after_append]

/-- The whole line leaves every argument as it found it. -/
theorem ops_keep_arg0 (V : Valuation τ sig (Elt F)) : after (ops (F := F)) V (Proc.devRef .tc main_arg0) = V (Proc.devRef .tc main_arg0) := by
  rw [after_ops, t2_keep_arg0, d2_keep_arg0, c2_keep_arg0, b2_keep_arg0, a2_keep_arg0, r1_keep_arg0, t1_keep_arg0, d1_keep_arg0, c1_keep_arg0, b1_keep_arg0, a1_keep_arg0]
theorem ops_keep_arg1 (V : Valuation τ sig (Elt F)) : after (ops (F := F)) V (Proc.devRef .tc main_arg1) = V (Proc.devRef .tc main_arg1) := by
  rw [after_ops, t2_keep_arg1, d2_keep_arg1, c2_keep_arg1, b2_keep_arg1, a2_keep_arg1, r1_keep_arg1, t1_keep_arg1, d1_keep_arg1, c1_keep_arg1, b1_keep_arg1, a1_keep_arg1]
theorem ops_keep_arg2 (V : Valuation τ sig (Elt F)) : after (ops (F := F)) V (Proc.devRef .tc main_arg2) = V (Proc.devRef .tc main_arg2) := by
  rw [after_ops, t2_keep_arg2, d2_keep_arg2, c2_keep_arg2, b2_keep_arg2, a2_keep_arg2, r1_keep_arg2, t1_keep_arg2, d1_keep_arg2, c1_keep_arg2, b1_keep_arg2, a1_keep_arg2]
theorem ops_keep_arg3 (V : Valuation τ sig (Elt F)) : after (ops (F := F)) V (Proc.devRef .tc main_arg3) = V (Proc.devRef .tc main_arg3) := by
  rw [after_ops, t2_keep_arg3, d2_keep_arg3, c2_keep_arg3, b2_keep_arg3, a2_keep_arg3, r1_keep_arg3, t1_keep_arg3, d1_keep_arg3, c1_keep_arg3, b1_keep_arg3, a1_keep_arg3]
theorem ops_keep_arg4 (V : Valuation τ sig (Elt F)) : after (ops (F := F)) V (Proc.devRef .tc main_arg4) = V (Proc.devRef .tc main_arg4) := by
  rw [after_ops, t2_keep_arg4, d2_keep_arg4, c2_keep_arg4, b2_keep_arg4, a2_keep_arg4, r1_keep_arg4, t1_keep_arg4, d1_keep_arg4, c1_keep_arg4, b1_keep_arg4, a1_keep_arg4]
theorem ops_keep_arg5 (V : Valuation τ sig (Elt F)) : after (ops (F := F)) V (Proc.devRef .tc main_arg5) = V (Proc.devRef .tc main_arg5) := by
  rw [after_ops, t2_keep_arg5, d2_keep_arg5, c2_keep_arg5, b2_keep_arg5, a2_keep_arg5, r1_keep_arg5, t1_keep_arg5, d1_keep_arg5, c1_keep_arg5, b1_keep_arg5, a1_keep_arg5]

/-- THE REFERENCE'S RESULT: the network of the six arguments. -/
theorem result_eq : after (ops (F := F)) (launchContents m c) (Proc.devRef .tc main_v96) = Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  exact R11_v96 m c

end Cert.ReferenceIdeal.HostValue

end
-- ==== Proof.lean ====
/-
  A two-layer graph convolution: the kernel and its reference compute the same function over the extended reals.

  THE TWO PROGRAMS. 50000 nodes with 128 features, 800000 edges and a self loop at every node (850000 messages). A layer
  projects the features by a dense product, gathers the projected row at each message's source, scales it by the
  message's norm deg(src)^(-1/2) · deg(dst)^(-1/2) (zero where a degree is zero), adds the scaled rows at the message's
  destination, and adds a bias; the network is two layers with a relu between. The reference does all of it in host
  operations and computes the degrees and norms once per layer. The kernel computes them once, and takes each dense
  product in a pipelined region: ten grid points, each multiplying a block of 5000 rows, rounded to bf16, by the whole
  weight array, rounded to bf16, into a zero accumulator.

  WHY THEY AGREE. At the ideal values a change of float format is the identity and a product into a zero accumulator is
  the plain sum over the contracted index, so a block of the region's output is the same block of the host's product,
  and the blocks tile the rows (RegionProduct). Every other operation is the same host operation on both sides, applied
  to the same operands: the reference's second computation of the sources, destinations and norms yields the same
  functions of the edge table as its first (RefTail), which are the kernel's (KernelTail). Both results are therefore
  `Gcn.gcn` of the six arguments (Spec), and equal. No algebraic law beyond that is used — no sum is reordered, no
  factor moved — so finiteness of the inputs is never needed, and the precondition is not opened.

  THE CLAIMS. The kernel's frames at both instances are the generated ones. The reference has no region: its run is
  the host line's fold (RefRun), and no operation of the line writes an argument. The idealization rewrote nothing, so
  `preserves` is `True`. For `algebraic`, the idealized kernel's run is read at its result buffer (KernelRun) and
  evaluated (KernelValue); the reference's is evaluated (RefTail); the arguments' agreement is rewritten.
-/
import proofs.«124687_j43611097924207_1_alg».proof.Defs
import proofs.«124687_j43611097924207_1_alg».proof.Proof.Gen.Kernel
import proofs.«124687_j43611097924207_1_alg».proof.Proof.Gen.Kernel.Skeleton
import proofs.«124687_j43611097924207_1_alg».proof.Proof.Gen.Kernel.Launch
import proofs.«124687_j43611097924207_1_alg».proof.Proof.Gen.Kernel.Points
import proofs.«124687_j43611097924207_1_alg».proof.Proof.Gen.Kernel.Frame
import proofs.«124687_j43611097924207_1_alg».proof.Proof.Gen.KernelIdeal
import proofs.«124687_j43611097924207_1_alg».proof.Proof.Gen.KernelIdeal.Skeleton
import proofs.«124687_j43611097924207_1_alg».proof.Proof.Gen.KernelIdeal.Launch
import proofs.«124687_j43611097924207_1_alg».proof.Proof.Gen.KernelIdeal.Points
import proofs.«124687_j43611097924207_1_alg».proof.Proof.Gen.KernelIdeal.Frame
import proofs.«124687_j43611097924207_1_alg».proof.Proof.Gen.ReferenceIdeal
import proofs.«124687_j43611097924207_1_alg».proof.Proof.Gen.Pre_finite_inputs
import proofs.«124687_j43611097924207_1_alg».proof.Proof.KernelRun
import proofs.«124687_j43611097924207_1_alg».proof.Proof.KernelValue
import proofs.«124687_j43611097924207_1_alg».proof.Proof.RefTail
import Idealize.ShloMosaic.Adequacy
import Idealize.ShloMosaic.Init

noncomputable section

namespace Cert.Proof

open Idealize.ShloMosaic Idealize.SL.Sem

/-- The kernel as printed runs, and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is one line of host operations, none of which writes an argument. -/
theorem frame_referenceIdeal : Cert.frame_ReferenceIdeal := fun m ρ _ =>
  (θ_run Cert.ReferenceIdeal.defs _ _).mono
    (fun _ h c =>
      ⟨(h c _).trans (Cert.ReferenceIdeal.HostValue.ops_keep_arg0 _),
       (h c _).trans (Cert.ReferenceIdeal.HostValue.ops_keep_arg1 _),
       (h c _).trans (Cert.ReferenceIdeal.HostValue.ops_keep_arg2 _),
       (h c _).trans (Cert.ReferenceIdeal.HostValue.ops_keep_arg3 _),
       (h c _).trans (Cert.ReferenceIdeal.HostValue.ops_keep_arg4 _),
       (h c _).trans (Cert.ReferenceIdeal.HostValue.ops_keep_arg5 _)⟩)
    (Cert.ReferenceIdeal.HostRun.run (F := Ideal) m ρ)

/-- The idealization rewrote no operation. -/
theorem preserves : Cert.preserves_Kernel_KernelIdeal := trivial

/-- From memories agreeing on the arguments both programs end with the network of the arguments in their result. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.NetValue.result_eq m ρ c), (h c).2⟩)
      (Cert.KernelIdeal.ResultRun.run_result (F := Ideal) m ρ)
  · refine (θ_run Cert.ReferenceIdeal.defs _ _).mono
      (fun _ h c =>
        ⟨(h c _).trans ((Cert.ReferenceIdeal.HostValue.result_eq m' c).trans ?_),
         (h c _).trans (Cert.ReferenceIdeal.HostValue.ops_keep_arg0 _),
         (h c _).trans (Cert.ReferenceIdeal.HostValue.ops_keep_arg1 _),
         (h c _).trans (Cert.ReferenceIdeal.HostValue.ops_keep_arg2 _),
         (h c _).trans (Cert.ReferenceIdeal.HostValue.ops_keep_arg3 _),
         (h c _).trans (Cert.ReferenceIdeal.HostValue.ops_keep_arg4 _),
         (h c _).trans (Cert.ReferenceIdeal.HostValue.ops_keep_arg5 _)⟩)
      (Cert.ReferenceIdeal.HostRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
